-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S6x64x64 : Shape := ⟨3, ![6, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S6x64x64 : S_.BroadcastsInDim S6x64x64 (![] : Fin 0 → Fin S6x64x64.rank)
  reducesTo_S6x64x64_S_d0_1_2 : S6x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S1600000 .f32) (main_arg3 : FVec F S6x64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S6x64x64 .f32 := Host.absf main_arg3
  let main_cst_2 : FVec F S_ .f32 := constant S_ .f32 0x7F800000#32
  let main_v10 : FVec F S6x64x64 .f32 := broadcastInDim S6x64x64 ![] bcast_S_S6x64x64 main_cst_2
  let main_v11 : IVec S6x64x64 1 := cmpf .olt main_v9 main_v10
  let main_c_3 : IVec S_ 1 := constantI S_ 1 1#1
  let main_v12 : IVec S_ 1 := (fun x v => Host.reduce IntOp.andi x v reducesTo_S6x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S6x64x64 : Shape := ⟨3, ![6, 64, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x100000x64 : Shape := ⟨3, ![1, 100000, 64]⟩
abbrev S6x100000x64 : Shape := ⟨3, ![6, 100000, 64]⟩
abbrev S6x4000x64 : Shape := ⟨3, ![6, 4000, 64]⟩
abbrev S4000x64 : Shape := ⟨2, ![4000, 64]⟩
abbrev S1x4000x64 : Shape := ⟨3, ![1, 4000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 149
  | .vmem => 7
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S6x64x64, .f32⟩
  | 4 => ⟨S64, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x64, .f32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1600000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S1x100000x64, .f32⟩
  | 14 => ⟨S1x100000x64, .f32⟩
  | 15 => ⟨S1x100000x64, .f32⟩
  | 16 => ⟨S1x100000x64, .f32⟩
  | 17 => ⟨S1x100000x64, .f32⟩
  | 18 => ⟨S1x100000x64, .f32⟩
  | 19 => ⟨S6x100000x64, .f32⟩
  | 20 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S6x4000x64, .f32⟩
  | .local _ .vmem, ⟨1, _⟩ => ⟨S6x4000x64, .f32⟩
  | .local _ .vmem, ⟨2, _⟩ => ⟨S6x64x64, .f32⟩
  | .local _ .vmem, ⟨3, _⟩ => ⟨S64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_c_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_21 : Ref sig .tc := ⟨.hbm, 122, rfl⟩
abbrev main_v92 : Ref sig .tc := ⟨.hbm, 123, rfl⟩
abbrev main_v93 : Ref sig .tc := ⟨.hbm, 124, rfl⟩
abbrev main_c_22 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_24 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S1x100000x64_S1x100000x64_S6x100000x64_d0 : Shape.Concatenates [S1x100000x64, S1x100000x64, S1x100000x64, S1x100000x64, S1x100000x64, S1x100000x64] S6x100000x64 0
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S6x4000x64_S1x4000x64_0_0_0 : ∀ a, (![0, 0, 0] : Fin 3 → Nat) a + S1x4000x64.size a ≤ S6x4000x64.size a
  h_S1x4000x64 : 0 < S1x4000x64.numel
  shapeCasts_S1x4000x64_S4000x64 : S1x4000x64.ShapeCasts S4000x64
  bitsLt_bf16_f32 : FTy.bits .bf16 < FTy.bits .f32
  inb_S6x64x64_S1x64x64_0_0_0 : ∀ a, (![0, 0, 0] : Fin 3 → Nat) a + S1x64x64.size a ≤ S6x64x64.size a
  h_S1x64x64 : 0 < S1x64x64.numel
  shapeCasts_S1x64x64_S64x64 : S1x64x64.ShapeCasts S64x64
  inb_S6x4000x64_S1x4000x64_1_0_0 : ∀ a, (![1, 0, 0] : Fin 3 → Nat) a + S1x4000x64.size a ≤ S6x4000x64.size a
  inb_S6x64x64_S1x64x64_1_0_0 : ∀ a, (![1, 0, 0] : Fin 3 → Nat) a + S1x64x64.size a ≤ S6x64x64.size a
  inb_S6x4000x64_S1x4000x64_2_0_0 : ∀ a, (![2, 0, 0] : Fin 3 → Nat) a + S1x4000x64.size a ≤ S6x4000x64.size a
  inb_S6x64x64_S1x64x64_2_0_0 : ∀ a, (![2, 0, 0] : Fin 3 → Nat) a + S1x64x64.size a ≤ S6x64x64.size a
  inb_S6x4000x64_S1x4000x64_3_0_0 : ∀ a, (![3, 0, 0] : Fin 3 → Nat) a + S1x4000x64.size a ≤ S6x4000x64.size a
  inb_S6x64x64_S1x64x64_3_0_0 : ∀ a, (![3, 0, 0] : Fin 3 → Nat) a + S1x64x64.size a ≤ S6x64x64.size a
  inb_S6x4000x64_S1x4000x64_4_0_0 : ∀ a, (![4, 0, 0] : Fin 3 → Nat) a + S1x4000x64.size a ≤ S6x4000x64.size a
  inb_S6x64x64_S1x64x64_4_0_0 : ∀ a, (![4, 0, 0] : Fin 3 → Nat) a + S1x64x64.size a ≤ S6x64x64.size a
  inb_S6x4000x64_S1x4000x64_5_0_0 : ∀ a, (![5, 0, 0] : Fin 3 → Nat) a + S1x4000x64.size a ≤ S6x4000x64.size a
  inb_S6x64x64_S1x64x64_5_0_0 : ∀ a, (![5, 0, 0] : Fin 3 → Nat) a + S1x64x64.size a ≤ S6x64x64.size a
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x4000x64.size a ≤ S6x100000x64.size a
  hwx0_0 : ∀ i : grid0.Coords, EltTy.bits .f32 = 32 ∨ (Rect.block (s := S6x100000x64) S6x4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64x64.size a ≤ S6x64x64.size a
  hwx0_1 : ∀ i : grid0.Coords, EltTy.bits .f32 = 32 ∨ (Rect.block (s := S6x64x64) S6x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v113) S6x4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v114) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S6x64x64 : Shape := ⟨3, ![6, 64, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩

abbrev nBuf : Space → Nat
  | .hbm => 170
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S6x64x64, .f32⟩
  | 4 => ⟨S64, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1x64x64, .f32⟩
  | 46 => ⟨S64x64, .f32⟩
  | 47 => ⟨S100000x64, .f32⟩
  | 48 => ⟨S1600000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S1x64x64, .f32⟩
  | 65 => ⟨S64x64, .f32⟩
  | 66 => ⟨S100000x64, .f32⟩
  | 67 => ⟨S100000x64, .f32⟩
  | 68 => ⟨S1600000x1, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1600000x64, .f32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S100000x64, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S100000x64, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_16 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_17 : Ref sig .tc := ⟨.hbm, 117, rfl⟩
abbrev main_v91 : Ref sig .tc := ⟨.hbm, 118, rfl⟩
abbrev main_v92 : Ref sig .tc := ⟨.hbm, 119, rfl⟩
abbrev main_c_18 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_19 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_21 : Ref sig .tc := ⟨.hbm, 141, rfl⟩
abbrev main_v111 : Ref sig .tc := ⟨.hbm, 142, rfl⟩
abbrev main_v112 : Ref sig .tc := ⟨.hbm, 143, rfl⟩
abbrev main_c_22 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_23 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_24 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_call1_cst : Ref sig .tc := ⟨.hbm, 167, rfl⟩
abbrev main_call1_v0 : Ref sig .tc := ⟨.hbm, 168, rfl⟩
abbrev main_v133 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S6x64x64_S1x64x64_0_0_0 : S6x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S6x64x64_S1x64x64_1_0_0 : S6x64x64.Slices ![1, 0, 0] S1x64x64
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelPrefix.lean ====
/-
  The stretch of @main before the kernel launch, for the program `Kernel`: 143 array operations on the host — the
  degree of every node as a scatter-add of the edge weights, its inverse square root where positive, the edge
  normalisation `-d(row)·w·d(col)`, five applications of the normalised adjacency (gather the source rows, scale,
  scatter-add into the target rows) giving the Chebyshev features T₁ … T₅ by the three-term recurrence
  `T_k = 2·L·T_(k-1) - T_(k-2)`, and their stacking with T₀ = x into one 6 × nodes × channels array.

  Stated here: what every buffer holds when the launch is reached (`entry`: the operations' fold over the launch
  memory), that @main up to the launch is those operations in order, and that no operation among them writes one of the
  five argument arrays — each writes only its own result buffer, distinct from every argument.
-/
import proofs.«134106_j41644002902087_1_alg».proof.Proof.Gen.Kernel.Launch
import Idealize.ShloMosaic.Lib.Pipeline.Frame
import Idealize.ShloMosaic.Lib.StableHlo.Run

set_option maxRecDepth 16384

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- The three stretches of host operations before the launch, in order: @main's own up to the call of the selection
    helper, the helper's three, and @main's own after it. -/
abbrev stretches : List (List (HloOp τ sig (Elt F))) := [hostOps0, hostOps0_1, hostOps0_2]

/-- What core `c`'s buffer `b` holds when the launch is reached: the host operations folded over the launch memory. -/
abbrev entry (c : Dev nD) (b : Ref sig .tc) : Buf (Elt F) ((c : Thread nD τ).loc b) :=
  StableHlo.after (stretches (F := F)).flatten (fun b => m (c, b)) b

/-- No host operation allocates: each writes a buffer the signature already declares. -/
theorem stretches_fresh : (stretches (F := F)).Forall fun ops => ops.Forall fun op => op.fresh = ∅ := by
  refine ⟨?_, ?_, ?_⟩
  all_goals (simp only [List.Forall]; repeat' constructor)

/-- Each host operation touches TensorCore buffers only. -/
theorem stretches_sub : (stretches (F := F)).Forall fun ops => ops.Forall fun op => op.bufs ⊆ StableHlo.tcRefs τ sig :=
  ⟨hostOps0_sub, hostOps0_1_sub, hostOps0_2_sub⟩

/-- @main up to the launch is the host operations in order, so the launch finds the buffers at `entry`. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh
    (fun c => (main_chain c).trans rfl)

/-- No host operation before the launch writes argument 0: the launch finds it as @main was given it. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 1: the launch finds it as @main was given it. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 2: the launch finds it as @main was given it. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 3: the launch finds it as @main was given it. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 4: the launch finds it as @main was given it. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Frame

end
-- ==== Proof.KernelRun.lean ====
/-
  One grid point of the combine kernel of `Kernel`, run on any whole staging buffers.

  The launch cuts the stacked features (6 × 100000 × 64) into 25 blocks of 4000 nodes, hands the body the whole
  weights and bias at every point, and writes back one 4000 × 64 block of the result per point. The body keeps a
  4000 × 64 accumulator in a scratch buffer of its own: it clears it, adds the six hop products into it one after the
  other (each time reading the accumulator back), then stores accumulator + bias clamped at zero into the output block.
  Nothing is carried from one grid point to the next: the accumulator is cleared before it is read for its value, and
  the output block is stored whole.

  Stated here: the block of each window at a point, read off the region-entry contents; that an input window's staging
  buffer holds that block at every point; the body's run — from the three input buffers at any contents, the output
  and the accumulator at anything, to the inputs unchanged, the accumulator at something, and the output buffer with
  the body's stores written into it (the stores themselves are found by running the body symbolically); and how the
  frame property of @main follows from a run of the launch theorem.
-/
import proofs.«134106_j41644002902087_1_alg».proof.Proof.KernelPrefix
import proofs.«134106_j41644002902087_1_alg».proof.Proof.Gen.Kernel.Skeleton
import proofs.«134106_j41644002902087_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every grid point, whether the pipeline fetched it there or
    not, for any proof data whose array is the region-entry contents and whose body leaves the block in place: an
    unfetched point is one where the block index did not move. -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every grid point, whether the pipeline fetched it there or
    not, for any proof data whose array is the region-entry contents and whose body leaves the block in place: an
    unfetched point is one where the block index did not move. -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every grid point, whether the pipeline fetched it there or
    not, for any proof data whose array is the region-entry contents and whose body leaves the block in place: an
    unfetched point is one where the block index did not move. -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame property from a run of the launch -/

/-- For any proof data whose arrays are the region-entry contents, a run of @main ending with every staged array at
    what the launch computes and every other buffer as the launch found it leaves the five argument arrays as @main was
    given them: the weights and the bias are staged inputs, which the launch never writes; the features, the edge list
    and the edge weights are staged by no window; and the host operations before the launch write none of the five. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide)).trans (entry_main_arg0 m c),
     ((h c).2 main_arg1 (by decide)).trans (entry_main_arg1 m c),
     ((h c).2 main_arg2 (by decide)).trans (entry_main_arg2 m c),
     ((h c).1 1).trans (((dats 0 c).arrAt_in 1 rfl _).trans ((hA c 1).trans (entry_main_arg3 m c))),
     ((h c).1 2).trans (((dats 0 c).arrAt_in 2 rfl _).trans ((hA c 2).trans (entry_main_arg4 m c)))⟩) h

/-! ## The staging buffers at a point -/

/-- One staging buffer of the output window, through which its contents are stated. -/
abbrev outView : View sig .tc .vmem S4000x64 .f32 := (Memref.whole cc0_stg3_0 : Memref sig .tc .vmem S4000x64 .f32).view
/-- Each window's current staging buffer at grid point `t`, spelled as the launch passes it to the body, and its wholeness. -/
abbrev buf0 (t : Fin cfg0.N) : Memref sig .tc .vmem S6x4000x64 .f32 := win0_0.stage (cfg0.slots t 0)
abbrev hbuf0 (t : Fin cfg0.N) : (buf0 t).IsWhole := hstage0_0 ((cfg0.slots t 0).cast nbuf0_0)
abbrev buf1 (t : Fin cfg0.N) : Memref sig .tc .vmem S6x64x64 .f32 := win0_1.stage (cfg0.slots t 1)
abbrev hbuf1 (t : Fin cfg0.N) : (buf1 t).IsWhole := hstage0_1 ((cfg0.slots t 1).cast nbuf0_1)
abbrev buf2 (t : Fin cfg0.N) : Memref sig .tc .vmem S64 .f32 := win0_2.stage (cfg0.slots t 2)
abbrev hbuf2 (t : Fin cfg0.N) : (buf2 t).IsWhole := hstage0_2 ((cfg0.slots t 2).cast nbuf0_2)
abbrev buf3 (t : Fin cfg0.N) : Memref sig .tc .vmem S4000x64 .f32 := win0_3.stage (cfg0.slots t 3)
abbrev hbuf3 (t : Fin cfg0.N) : (buf3 t).IsWhole := hstage0_3 ((cfg0.slots t 3).cast nbuf0_3)
/-- The accumulator: a whole scoped buffer of the kernel's own, passed beside the windows. -/
abbrev accBuf : Memref sig .tc .vmem S4000x64 .f32 := Memref.whole cc0_scratch0

/-- The region's invariant with the accumulator as a buffer owned at some contents: what the body is handed and hands back. -/
theorem inv_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

/-! ## The body on any whole staging buffers -/

set_option maxHeartbeats 4000000 in
/-- What the body's stores leave in the output's staging buffer, as pieces (last first), with the proof that on whole
    staging buffers — the inputs' at their contents, the output's and the accumulator's at anything — the body runs
    to a continuation that holds the inputs' as they were, the accumulator at some contents, and the output's buffer with
    those pieces written. -/
noncomputable def bodyRun (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) :
    { L3 : List (View.Piece (Elt F) S4000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__chebconv_combine_kernel i arg1 harg1 arg2 harg2 arg3 harg3 arg4 harg4 arg5 harg5) K } := by
  refine ⟨?_, fun E K => ?run⟩
  case run =>
    simp only [cc0__chebconv_combine_kernel_eq_skeleton]; unfold cc0__chebconv_combine_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

end Cert.Kernel.Frame

end
-- ==== Proof.KernelFrame.lean ====
/-
  The launch of the combine kernel of `Kernel` and the frame property of its @main.

  At each of the 25 grid points the body's one store into the output block covers it whole, so the output's staging
  buffer afterwards reads as that store, whatever it held before; the three inputs' buffers still hold their blocks.
  With these as the proof data — every array at its region-entry contents, each input's buffer at its block after
  every point, the output's at what the body stored, the accumulator and the generator register kept in the region's
  invariant at some contents — the launch theorem runs @main to the end with no fault, every staged array at what
  the write-backs make of it and every other buffer as the launch found it; the argument arrays are among those the
  launch leaves alone, and the host operations before it write none of them.
-/
import proofs.«134106_j41644002902087_1_alg».proof.Proof.KernelRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The body's stores into the output block cover it: there is one, of the whole 4000 × 64 block. -/
theorem out_cover (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) (y : S4000x64.Idx) :
    ∃ pc ∈ (bodyRun c i arg1 harg1 arg2 harg2 arg3 harg3 arg4 harg4 arg5 harg5 x0 x1 x2).1, y ∈ pc.1.set :=
  View.cover_of_tiledL (bodyRun c i arg1 harg1 arg2 harg2 arg3 harg3 arg4 harg4 arg5 harg5 x0 x1 x2).1 S4000x64.size (by sl_kernel_rfl) y

/-- What the body leaves in the output's staging buffer: its stores read back, over anything. -/
def outBlock (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) : Vec F S4000x64 .f32 :=
  outView.read (Elt F) (outView.writes (Elt F) outView.junk (bodyRun c i arg1 harg1 arg2 harg2 arg3 harg3 arg4 harg4 arg5 harg5 x0 x1 x2).1)

/-- What the output's staging buffer holds after the body at grid point `t`: the body's stores of the point's input blocks. -/
def outAt (c : Dev nD) (t : Fin cfg0.N) : Vec F S4000x64 .f32 :=
  outBlock c (grid0.coords t) (buf0 t) (hbuf0 t) (buf1 t) (hbuf1 t) (buf2 t) (hbuf2 t) (buf3 t) (hbuf3 t) accBuf (Memref.isWhole_whole _)
    (blockAt m c 0 t) (blockAt m c 1 t) (blockAt m c 2 t)

/-! ## The launch's proof data -/

/-- On core `c`: the arrays as the launch finds them; after the body at point `t` each input's buffer at its block and
    the output's at what the body stored; the invariant the accumulator and the generator register at some contents;
    nothing owed to other cores; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ _ := Pipeline.ΦA spec0 c
  q _ := fullShare
  owed _ := 0

/-- The proof data's arrays are the region-entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d

/-! ## The body at a grid point -/

/-- What the body is called with at point `t`: the invariant, nothing owed, and each window's current staging buffer at
    what the launch left in it, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t))

/-- The body at any point: the inputs' buffers hold their blocks, so the run applies; the invariant hands the body its
    accumulator at some contents and takes it back at some contents; the one store covers the output block, so the buffer
    reads as the store; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, inv_eq]
  unfold outAt
  unfold outBlock
  iintro ⟨⟨HS0, Hg⟩, Ho, ⟨%d0, H0⟩, ⟨%d1, H1⟩, ⟨%d2, H2⟩, ⟨%d3, H3⟩⟩
  iapply ((bodyRun c (grid0.coords t) _ _ _ _ _ _ _ _ _ _ (blockAt m c 0 t) (blockAt m c 1 t) (blockAt m c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (out_cover c _ _ _ _ _ _ _ _ _ _ _ _ _ _)

/-- The launch theorem's obligation for the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every staged array at what the launch computes from the proof data and every other buffer as the
    launch found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_launch m Variants.none) (hA := A_eq m) (hΦ := fun _ _ => rfl)

/-- The frame property of @main, at any float instance: it runs to the end, nothing faults, and the five argument
    arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frame

end
-- ==== Proof.KernelIdealPrefix.lean ====
/-
  The stretch of @main before the kernel launch, for the program `KernelIdeal`: 143 array operations on the host — the
  degree of every node as a scatter-add of the edge weights, its inverse square root where positive, the edge
  normalisation `-d(row)·w·d(col)`, five applications of the normalised adjacency (gather the source rows, scale,
  scatter-add into the target rows) giving the Chebyshev features T₁ … T₅ by the three-term recurrence
  `T_k = 2·L·T_(k-1) - T_(k-2)`, and their stacking with T₀ = x into one 6 × nodes × channels array.

  Stated here: what every buffer holds when the launch is reached (`entry`: the operations' fold over the launch
  memory), that @main up to the launch is those operations in order, and that no operation among them writes one of the
  five argument arrays — each writes only its own result buffer, distinct from every argument.
-/
import proofs.«134106_j41644002902087_1_alg».proof.Proof.Gen.KernelIdeal.Launch
import Idealize.ShloMosaic.Lib.Pipeline.Frame
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- The three stretches of host operations before the launch, in order: @main's own up to the call of the selection
    helper, the helper's three, and @main's own after it. -/
abbrev stretches : List (List (HloOp τ sig (Elt F))) := [hostOps0, hostOps0_1, hostOps0_2]

/-- What core `c`'s buffer `b` holds when the launch is reached: the host operations folded over the launch memory. -/
abbrev entry (c : Dev nD) (b : Ref sig .tc) : Buf (Elt F) ((c : Thread nD τ).loc b) :=
  StableHlo.after (stretches (F := F)).flatten (fun b => m (c, b)) b

/-- No host operation allocates: each writes a buffer the signature already declares. -/
theorem stretches_fresh : (stretches (F := F)).Forall fun ops => ops.Forall fun op => op.fresh = ∅ := by
  refine ⟨?_, ?_, ?_⟩
  all_goals (simp only [List.Forall]; repeat' constructor)

/-- Each host operation touches TensorCore buffers only. -/
theorem stretches_sub : (stretches (F := F)).Forall fun ops => ops.Forall fun op => op.bufs ⊆ StableHlo.tcRefs τ sig :=
  ⟨hostOps0_sub, hostOps0_1_sub, hostOps0_2_sub⟩

/-- @main up to the launch is the host operations in order, so the launch finds the buffers at `entry`. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh
    (fun c => (main_chain c).trans rfl)

/-- No host operation before the launch writes argument 0: the launch finds it as @main was given it. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 1: the launch finds it as @main was given it. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 2: the launch finds it as @main was given it. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 3: the launch finds it as @main was given it. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation before the launch writes argument 4: the launch finds it as @main was given it. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Frame

end
-- ==== Proof.KernelIdealRun.lean ====
/-
  One grid point of the combine kernel of `KernelIdeal`, run on any whole staging buffers.

  The launch cuts the stacked features (6 × 100000 × 64) into 25 blocks of 4000 nodes, hands the body the whole
  weights and bias at every point, and writes back one 4000 × 64 block of the result per point. The body keeps a
  4000 × 64 accumulator in a scratch buffer of its own: it clears it, adds the six hop products into it one after the
  other (each time reading the accumulator back), then stores accumulator + bias clamped at zero into the output block.
  Nothing is carried from one grid point to the next: the accumulator is cleared before it is read for its value, and
  the output block is stored whole.

  Stated here: the block of each window at a point, read off the region-entry contents; that an input window's staging
  buffer holds that block at every point; the body's run — from the three input buffers at any contents, the output
  and the accumulator at anything, to the inputs unchanged, the accumulator at something, and the output buffer with
  the body's stores written into it (the stores themselves are found by running the body symbolically); and how the
  frame property of @main follows from a run of the launch theorem.
-/
import proofs.«134106_j41644002902087_1_alg».proof.Proof.KernelIdealPrefix
import proofs.«134106_j41644002902087_1_alg».proof.Proof.Gen.KernelIdeal.Skeleton
import proofs.«134106_j41644002902087_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every grid point, whether the pipeline fetched it there or
    not, for any proof data whose array is the region-entry contents and whose body leaves the block in place: an
    unfetched point is one where the block index did not move. -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every grid point, whether the pipeline fetched it there or
    not, for any proof data whose array is the region-entry contents and whose body leaves the block in place: an
    unfetched point is one where the block index did not move. -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every grid point, whether the pipeline fetched it there or
    not, for any proof data whose array is the region-entry contents and whose body leaves the block in place: an
    unfetched point is one where the block index did not move. -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame property from a run of the launch -/

/-- For any proof data whose arrays are the region-entry contents, a run of @main ending with every staged array at
    what the launch computes and every other buffer as the launch found it leaves the five argument arrays as @main was
    given them: the weights and the bias are staged inputs, which the launch never writes; the features, the edge list
    and the edge weights are staged by no window; and the host operations before the launch write none of the five. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide)).trans (entry_main_arg0 m c),
     ((h c).2 main_arg1 (by decide)).trans (entry_main_arg1 m c),
     ((h c).2 main_arg2 (by decide)).trans (entry_main_arg2 m c),
     ((h c).1 1).trans (((dats 0 c).arrAt_in 1 rfl _).trans ((hA c 1).trans (entry_main_arg3 m c))),
     ((h c).1 2).trans (((dats 0 c).arrAt_in 2 rfl _).trans ((hA c 2).trans (entry_main_arg4 m c)))⟩) h

/-! ## The staging buffers at a point -/

/-- One staging buffer of the output window, through which its contents are stated. -/
abbrev outView : View sig .tc .vmem S4000x64 .f32 := (Memref.whole cc0_stg3_0 : Memref sig .tc .vmem S4000x64 .f32).view
/-- Each window's current staging buffer at grid point `t`, spelled as the launch passes it to the body, and its wholeness. -/
abbrev buf0 (t : Fin cfg0.N) : Memref sig .tc .vmem S6x4000x64 .f32 := win0_0.stage (cfg0.slots t 0)
abbrev hbuf0 (t : Fin cfg0.N) : (buf0 t).IsWhole := hstage0_0 ((cfg0.slots t 0).cast nbuf0_0)
abbrev buf1 (t : Fin cfg0.N) : Memref sig .tc .vmem S6x64x64 .f32 := win0_1.stage (cfg0.slots t 1)
abbrev hbuf1 (t : Fin cfg0.N) : (buf1 t).IsWhole := hstage0_1 ((cfg0.slots t 1).cast nbuf0_1)
abbrev buf2 (t : Fin cfg0.N) : Memref sig .tc .vmem S64 .f32 := win0_2.stage (cfg0.slots t 2)
abbrev hbuf2 (t : Fin cfg0.N) : (buf2 t).IsWhole := hstage0_2 ((cfg0.slots t 2).cast nbuf0_2)
abbrev buf3 (t : Fin cfg0.N) : Memref sig .tc .vmem S4000x64 .f32 := win0_3.stage (cfg0.slots t 3)
abbrev hbuf3 (t : Fin cfg0.N) : (buf3 t).IsWhole := hstage0_3 ((cfg0.slots t 3).cast nbuf0_3)
/-- The accumulator: a whole scoped buffer of the kernel's own, passed beside the windows. -/
abbrev accBuf : Memref sig .tc .vmem S4000x64 .f32 := Memref.whole cc0_scratch0

/-- The region's invariant with the accumulator as a buffer owned at some contents: what the body is handed and hands back. -/
theorem inv_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

/-! ## The body on any whole staging buffers -/

set_option maxHeartbeats 4000000 in
/-- What the body's stores leave in the output's staging buffer, as pieces (last first), with the proof that on whole
    staging buffers — the inputs' at their contents, the output's and the accumulator's at anything — the body runs
    to a continuation that holds the inputs' as they were, the accumulator at some contents, and the output's buffer with
    those pieces written. -/
noncomputable def bodyRun (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) :
    { L3 : List (View.Piece (Elt F) S4000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__chebconv_combine_kernel i arg1 harg1 arg2 harg2 arg3 harg3 arg4 harg4 arg5 harg5) K } := by
  refine ⟨?_, fun E K => ?run⟩
  case run =>
    simp only [cc0__chebconv_combine_kernel_eq_skeleton]; unfold cc0__chebconv_combine_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

end Cert.KernelIdeal.Frame

end
-- ==== Proof.KernelIdealFrame.lean ====
/-
  The launch of the combine kernel of `KernelIdeal` and the frame property of its @main.

  At each of the 25 grid points the body's one store into the output block covers it whole, so the output's staging
  buffer afterwards reads as that store, whatever it held before; the three inputs' buffers still hold their blocks.
  With these as the proof data — every array at its region-entry contents, each input's buffer at its block after
  every point, the output's at what the body stored, the accumulator and the generator register kept in the region's
  invariant at some contents — the launch theorem runs @main to the end with no fault, every staged array at what
  the write-backs make of it and every other buffer as the launch found it; the argument arrays are among those the
  launch leaves alone, and the host operations before it write none of them.
-/
import proofs.«134106_j41644002902087_1_alg».proof.Proof.KernelIdealRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The body's stores into the output block cover it: there is one, of the whole 4000 × 64 block. -/
theorem out_cover (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) (y : S4000x64.Idx) :
    ∃ pc ∈ (bodyRun c i arg1 harg1 arg2 harg2 arg3 harg3 arg4 harg4 arg5 harg5 x0 x1 x2).1, y ∈ pc.1.set :=
  View.cover_of_tiledL (bodyRun c i arg1 harg1 arg2 harg2 arg3 harg3 arg4 harg4 arg5 harg5 x0 x1 x2).1 S4000x64.size (by sl_kernel_rfl) y

/-- What the body leaves in the output's staging buffer: its stores read back, over anything. -/
def outBlock (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) : Vec F S4000x64 .f32 :=
  outView.read (Elt F) (outView.writes (Elt F) outView.junk (bodyRun c i arg1 harg1 arg2 harg2 arg3 harg3 arg4 harg4 arg5 harg5 x0 x1 x2).1)

/-- What the output's staging buffer holds after the body at grid point `t`: the body's stores of the point's input blocks. -/
def outAt (c : Dev nD) (t : Fin cfg0.N) : Vec F S4000x64 .f32 :=
  outBlock c (grid0.coords t) (buf0 t) (hbuf0 t) (buf1 t) (hbuf1 t) (buf2 t) (hbuf2 t) (buf3 t) (hbuf3 t) accBuf (Memref.isWhole_whole _)
    (blockAt m c 0 t) (blockAt m c 1 t) (blockAt m c 2 t)

/-! ## The launch's proof data -/

/-- On core `c`: the arrays as the launch finds them; after the body at point `t` each input's buffer at its block and
    the output's at what the body stored; the invariant the accumulator and the generator register at some contents;
    nothing owed to other cores; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ _ := Pipeline.ΦA spec0 c
  q _ := fullShare
  owed _ := 0

/-- The proof data's arrays are the region-entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d

/-! ## The body at a grid point -/

/-- What the body is called with at point `t`: the invariant, nothing owed, and each window's current staging buffer at
    what the launch left in it, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t))

/-- The body at any point: the inputs' buffers hold their blocks, so the run applies; the invariant hands the body its
    accumulator at some contents and takes it back at some contents; the one store covers the output block, so the buffer
    reads as the store; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, inv_eq]
  unfold outAt
  unfold outBlock
  iintro ⟨⟨HS0, Hg⟩, Ho, ⟨%d0, H0⟩, ⟨%d1, H1⟩, ⟨%d2, H2⟩, ⟨%d3, H3⟩⟩
  iapply ((bodyRun c (grid0.coords t) _ _ _ _ _ _ _ _ _ _ (blockAt m c 0 t) (blockAt m c 1 t) (blockAt m c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (out_cover c _ _ _ _ _ _ _ _ _ _ _ _ _ _)

/-- The launch theorem's obligation for the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every staged array at what the launch computes from the proof data and every other buffer as the
    launch found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_launch m Variants.none) (hA := A_eq m) (hΦ := fun _ _ => rfl)

/-- The frame property of @main, at any float instance: it runs to the end, nothing faults, and the five argument
    arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frame

end
-- ==== Proof.LibReadBack.lean ====
/-
  Reading a buffer back after it has been overwritten whole.

  When the most recent store into a buffer covered all of it, a load of the whole buffer reads that store's value,
  whatever the earlier stores were: an accumulator that is rewritten in full several times and read back after each.
-/
import Idealize.ShloMosaic.Lib.Pipeline.Value

noncomputable section

namespace Cert.Lib

open Idealize.ShloMosaic

variable {Val : EltTy → Type} {S : Shape} {e : EltTy}

/-- A load through the whole-shape rectangle at zero offsets, of what a list of stores left whose LAST store went
    through that same rectangle, reads the last store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.Lib

end
-- ==== Proof.ChebCombine.lean ====
/-
  The dense stage of a Chebyshev graph convolution, as one function of its inputs over the extended reals.

  Given the six propagated feature arrays T₀ … T₅ (each nodes × channels = 100000 × 64), the per-hop weights
  W (6 × 64 × 64) and the bias b (64), the layer's output at node n and output channel f is

      max ( (((((h₀ + h₁) + h₂) + h₃) + h₄) + h₅) + b f , 0 ),     hₖ = ∑ⱼ Tₖ(n, j) · W(k, j, f),

  the hops added left to right from the first. Both programs compute this: one starts the running sum from the first
  hop's product, the other from zero and adds the first hop to it; on the extended reals `0 + a = a` with no side
  condition (`zero_add`), which is the only law that separates the two arrangements — no distributivity, no
  cancellation, so no finiteness of the inputs is used.
-/
import Idealize.ShloMosaic.PureOps.Ideal
import Idealize.ShloMosaic.Lib.ValueIdx

noncomputable section

open scoped BigOperators

namespace Cert.Cheb

open Idealize.ShloMosaic Idealize.ShloMosaic.ValueIdx

/-- A nodes × channels array of extended reals. -/
abbrev Feat : Type := (⟨2, ![100000, 64]⟩ : Shape).Idx → EReal
/-- The per-hop weights: hop × input channel × output channel. -/
abbrev Weights : Type := (⟨3, ![6, 64, 64]⟩ : Shape).Idx → EReal
/-- The bias, one entry per output channel. -/
abbrev Bias : Type := (⟨1, ![64]⟩ : Shape).Idx → EReal

/-- One hop's contribution at node `n`, output channel `f`: row `n` of the hop's features against column `f` of the
    hop's weight matrix. -/
def hop (T : Feat) (W : Weights) (k : Fin 6) (n : Fin 100000) (f : Fin 64) : EReal :=
  ∑ j : Fin 64, T (ix2 n j) * W (ix3 k j f)

/-- The six hops added left to right from the first, at node `n`, output channel `f`. -/
def hops (T0 T1 T2 T3 T4 T5 : Feat) (W : Weights) (n : Fin 100000) (f : Fin 64) : EReal :=
  ((((hop T0 W 0 n f + hop T1 W 1 n f) + hop T2 W 2 n f) + hop T3 W 3 n f) + hop T4 W 4 n f) + hop T5 W 5 n f

/-- The layer's output: the hops' sum plus the bias, clamped below at zero. -/
def combine (T0 T1 T2 T3 T4 T5 : Feat) (W : Weights) (b : Bias) : Feat :=
  fun i => max (hops T0 T1 T2 T3 T4 T5 W (i 0) (i 1) + b (ix1 (i 1))) 0

/-- The same sum started from zero: what a running accumulator cleared first and then added to six times holds. -/
theorem hops_from_zero (T0 T1 T2 T3 T4 T5 : Feat) (W : Weights) (n : Fin 100000) (f : Fin 64) :
    (((((0 + hop T0 W 0 n f) + hop T1 W 1 n f) + hop T2 W 2 n f) + hop T3 W 3 n f) + hop T4 W 4 n f) + hop T5 W 5 n f
      = hops T0 T1 T2 T3 T4 T5 W n f := by
  unfold hops; rw [zero_add]

end Cert.Cheb

end
-- ==== Proof.KernelIdealValue.lean ====
/-
  What the combine kernel of `KernelIdeal` leaves in the result array, over the extended reals.

  One grid point: the body's single store into the output block is the accumulator plus the bias, clamped at zero; the
  accumulator is cleared and then receives, one after the other, the six products (slab k of the features block) ·
  (slab k of the weights), each read of it seeing the store just before. Read at row r and channel f of the block that is

      max ( ((((((0 + h₀) + h₁) + h₂) + h₃) + h₄) + h₅) + b f , 0 ),    hₖ = ∑ⱼ A(k, r, j) · W(k, j, f)

  — a matrix product into a zero accumulator is the plain sum of products, and narrowing the operands to a shorter float
  format changes nothing on the extended reals.

  All points: the features window and the output window move along the node axis together, 4000 nodes per point, the
  weights and the bias are the same block at every point; so point t writes rows 4000 t … 4000 t + 3999 of the dense stage
  of the six slabs of the stacked array, and the 25 blocks cover all 100000 rows (row n lies in block n / 4000). Hence the
  result array ends holding the dense stage — with the leading `0 +` absorbed by `zero_add`.
-/
import proofs.«134106_j41644002902087_1_alg».proof.Proof.KernelIdealFrame
import proofs.«134106_j41644002902087_1_alg».proof.Proof.LibReadBack
import proofs.«134106_j41644002902087_1_alg».proof.Proof.ChebCombine
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a <;> rfl

/-- The accumulator after the clear and the first `k` hops, as a function of the features block `x0` and the weights `x1`:
    each hop adds the product of one slab of the features block with one slab of the weights. -/
def acc1 (x0 : Vec F S6x4000x64 .f32) (x1 : Vec F S6x64x64 .f32) : FVec F S4000x64 .f32 := k0_pay5 (View.ld x0 (Rect.unit (s := S6x4000x64) ![0, 0, 0] S1x4000x64.size inb_S6x4000x64_S1x4000x64_0_0_0)) (View.ld x1 (Rect.unit (s := S6x64x64) ![0, 0, 0] S1x64x64.size inb_S6x64x64_S1x64x64_0_0_0)) (k0_pay4 (F := F))
def acc2 (x0 : Vec F S6x4000x64 .f32) (x1 : Vec F S6x64x64 .f32) : FVec F S4000x64 .f32 := k0_pay6 (View.ld x0 (Rect.unit (s := S6x4000x64) ![1, 0, 0] S1x4000x64.size inb_S6x4000x64_S1x4000x64_1_0_0)) (View.ld x1 (Rect.unit (s := S6x64x64) ![1, 0, 0] S1x64x64.size inb_S6x64x64_S1x64x64_1_0_0)) (acc1 x0 x1)
def acc3 (x0 : Vec F S6x4000x64 .f32) (x1 : Vec F S6x64x64 .f32) : FVec F S4000x64 .f32 := k0_pay7 (View.ld x0 (Rect.unit (s := S6x4000x64) ![2, 0, 0] S1x4000x64.size inb_S6x4000x64_S1x4000x64_2_0_0)) (View.ld x1 (Rect.unit (s := S6x64x64) ![2, 0, 0] S1x64x64.size inb_S6x64x64_S1x64x64_2_0_0)) (acc2 x0 x1)
def acc4 (x0 : Vec F S6x4000x64 .f32) (x1 : Vec F S6x64x64 .f32) : FVec F S4000x64 .f32 := k0_pay8 (View.ld x0 (Rect.unit (s := S6x4000x64) ![3, 0, 0] S1x4000x64.size inb_S6x4000x64_S1x4000x64_3_0_0)) (View.ld x1 (Rect.unit (s := S6x64x64) ![3, 0, 0] S1x64x64.size inb_S6x64x64_S1x64x64_3_0_0)) (acc3 x0 x1)
def acc5 (x0 : Vec F S6x4000x64 .f32) (x1 : Vec F S6x64x64 .f32) : FVec F S4000x64 .f32 := k0_pay1 (k0_pay9 (View.ld x0 (Rect.unit (s := S6x4000x64) ![4, 0, 0] S1x4000x64.size inb_S6x4000x64_S1x4000x64_4_0_0))) (k0_pay10 (View.ld x1 (Rect.unit (s := S6x64x64) ![4, 0, 0] S1x64x64.size inb_S6x64x64_S1x64x64_4_0_0))) (acc4 x0 x1)
def acc6 (x0 : Vec F S6x4000x64 .f32) (x1 : Vec F S6x64x64 .f32) : FVec F S4000x64 .f32 := k0_pay2 (View.ld x0 (Rect.unit (s := S6x4000x64) ![5, 0, 0] S1x4000x64.size inb_S6x4000x64_S1x4000x64_5_0_0)) (View.ld x1 (Rect.unit (s := S6x64x64) ![5, 0, 0] S1x64x64.size inb_S6x64x64_S1x64x64_5_0_0)) (acc5 x0 x1)
/-- What the body stores into the output block: the full accumulator plus the bias, clamped at zero. -/
def stored (x0 : Vec F S6x4000x64 .f32) (x1 : Vec F S6x64x64 .f32) (x2 : Vec F S64 .f32) : FVec F S4000x64 .f32 := k0_pay3 (acc6 x0 x1) x2

/-- The body's stores into the output block, read back, are that value: the output's one store covers the block, and each
    read of the accumulator sees the store just before it. -/
theorem outBlock_eq (c : Dev nD) (i : grid0.Coords) (arg1 : Memref sig .tc .vmem S6x4000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S4000x64 .f32) (harg4 : arg4.IsWhole) (arg5 : Memref sig .tc .vmem S4000x64 .f32) (harg5 : arg5.IsWhole)
    (x0 : Vec F S6x4000x64 .f32) (x1 : Vec F S6x64x64 .f32) (x2 : Vec F S64 .f32) :
    outBlock c i arg1 harg1 arg2 harg2 arg3 harg3 arg4 harg4 arg5 harg5 x0 x1 x2 = stored x0 x1 x2 := by
  unfold outBlock
  rw [View.read_writes_eq_canon _ _ _ (out_cover c i arg1 harg1 arg2 harg2 arg3 harg3 arg4 harg4 arg5 harg5 x0 x1 x2)]
  unfold bodyRun
  dsimp only
  sl_unfold_words
  rw [View.canon_unit_zero zero2]
  simp only [Cert.Lib.readCov_cons_unit_zero (S := S4000x64) _ zero2, View.readCov_unit_zero (S := S4000x64) _ zero2, View.readAt_eq_ld,
    harg1.read_unread, harg2.read_unread, harg3.read_unread, View.ld_unit_zero (S := S64) zero1]
  rfl

/-! ## The payloads at an index, over the extended reals -/

section AtIdeal

/-- The matmul's operand indices at output index (r, f) and contraction index q: the left operand is read at row r, the
    right at column f, both at the contracted coordinate. -/
theorem lhs_row (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_contr (i : S4000x64.Idx) (q : dot_S4000x64_S64x64_S4000x64_1_0_0_1_n_n.contr.Idx) : (dot_S4000x64_S64x64_S4000x64_1_0_0_1_n_n.lhsIdx i q 1).val = (q ⟨0, by decide⟩).val :=
  dot_S4000x64_S64x64_S4000x64_1_0_0_1_n_n.lhsIdx_val_of_single rfl i q
theorem rhs_contr (i : S4000x64.Idx) (q : dot_S4000x64_S64x64_S4000x64_1_0_0_1_n_n.contr.Idx) : (dot_S4000x64_S64x64_S4000x64_1_0_0_1_n_n.rhsIdx i q 0).val = (q ⟨0, by decide⟩).val :=
  dot_S4000x64_S64x64_S4000x64_1_0_0_1_n_n.rhsIdx_val_of_single rfl i q
theorem rhs_col (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- One hop at node row r, output channel f: the accumulator there plus the row of the features slab against the
    column of the weight slab (the narrowing of both operands to a shorter float format is the identity here). -/
theorem hop_apply (a : Vec Ideal S1x4000x64 .f32) (w : Vec Ideal S1x64x64 .f32) (acc : Vec Ideal S4000x64 .f32) (r : Fin 4000) (f : Fin 64) :
    k0_pay5 (F := Ideal) a w acc (ix2 r f) = acc (ix2 r f) + ∑ j : Fin 64, a (ix3 (0 : Fin 1) r j) * w (ix3 (0 : Fin 1) j f) := by
  unfold k0_pay5
  rw [shapeCast_self, addf_apply]
  congr 1
  refine (Ideal.matmul_constant_zero_apply dot_S4000x64_S64x64_S4000x64_1_0_0_1_n_n none _ _ (ix2 r f)).trans ?_
  rw [← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 r f) ((ValueIdx.contrEquiv1 dot_S4000x64_S64x64_S4000x64_1_0_0_1_n_n 64 rfl rfl).symm k) = ix2 r k := funext fun a => Fin.ext (by
    match a with
    | ⟨0, _⟩ => exact lhs_row _ _
    | ⟨1, _⟩ => exact (lhs_contr _ _).trans hk)
  have er : dot_S4000x64_S64x64_S4000x64_1_0_0_1_n_n.rhsIdx (ix2 r f) ((ValueIdx.contrEquiv1 dot_S4000x64_S64x64_S4000x64_1_0_0_1_n_n 64 rfl rfl).symm k) = ix2 k f := funext fun a => Fin.ext (by
    match a with
    | ⟨0, _⟩ => exact (rhs_contr _ _).trans hk
    | ⟨1, _⟩ => exact rhs_col _ _)
  rw [el, er, truncf_apply, truncf_apply, shapeCast_1ab_ab_apply, shapeCast_1ab_ab_apply]

/-- The last five hops' payloads are the first's: the same operations of their three operands. -/
theorem pay6_eq (a : Vec Ideal S1x4000x64 .f32) (w : Vec Ideal S1x64x64 .f32) (acc : Vec Ideal S4000x64 .f32) : k0_pay6 (F := Ideal) a w acc = k0_pay5 a w acc := rfl
theorem pay7_eq (a : Vec Ideal S1x4000x64 .f32) (w : Vec Ideal S1x64x64 .f32) (acc : Vec Ideal S4000x64 .f32) : k0_pay7 (F := Ideal) a w acc = k0_pay5 a w acc := rfl
theorem pay8_eq (a : Vec Ideal S1x4000x64 .f32) (w : Vec Ideal S1x64x64 .f32) (acc : Vec Ideal S4000x64 .f32) : k0_pay8 (F := Ideal) a w acc = k0_pay5 a w acc := rfl
theorem pay2_eq (a : Vec Ideal S1x4000x64 .f32) (w : Vec Ideal S1x64x64 .f32) (acc : Vec Ideal S4000x64 .f32) : k0_pay2 (F := Ideal) a w acc = k0_pay5 a w acc := rfl
theorem pay1_eq (a : Vec Ideal S1x4000x64 .f32) (w : Vec Ideal S1x64x64 .f32) (acc : Vec Ideal S4000x64 .f32) :
    k0_pay1 (F := Ideal) (k0_pay9 a) (k0_pay10 w) acc = k0_pay5 a w acc := rfl

/-- The cleared accumulator is zero everywhere. -/
theorem clear_apply (r : Fin 4000) (f : Fin 64) : k0_pay4 (F := Ideal) (ix2 r f) = 0 := by
  unfold k0_pay4
  rw [shapeCast_self, broadcast_apply]
  exact Ideal.ofBits_zero_f32

/-- The stored value at (r, f): the accumulator plus the bias at channel f, clamped below at zero. -/
theorem clamp_apply (acc : Vec Ideal S4000x64 .f32) (b : Vec Ideal S64 .f32) (r : Fin 4000) (f : Fin 64) :
    k0_pay3 (F := Ideal) acc b (ix2 r f) = max (acc (ix2 r f) + b (ix1 f)) 0 := by
  unfold k0_pay3
  rw [maximumf_apply, addf_apply, broadcast_apply, broadcastTo_1b_ab_apply, shapeCast_a_1a_apply]
  congr 1
  exact Ideal.ofBits_zero_f32

/-- A slab of the features block (or of the weights), loaded as a block with a leading unit axis at offset (k, 0, 0) and read at
    (0, ·, ·), is the block at (k, ·, ·). -/
theorem slabA0 (x0 : Vec Ideal S6x4000x64 .f32) (r : Fin 4000) (j : Fin 64) :
    View.ld x0 (Rect.unit (s := S6x4000x64) ![0, 0, 0] S1x4000x64.size inb_S6x4000x64_S1x4000x64_0_0_0) (ix3 (0 : Fin 1) r j) = x0 (ix3 (0 : Fin 6) r j) := by
  show x0 _ = x0 _
  congr 1; funext a; apply Fin.ext
  match a with
  | ⟨0, _⟩ => show 0 + 1 * 0 = 0; omega
  | ⟨1, _⟩ => show 0 + 1 * r.val = r.val; omega
  | ⟨2, _⟩ => show 0 + 1 * j.val = j.val; omega
theorem slabW0 (x1 : Vec Ideal S6x64x64 .f32) (j : Fin 64) (f : Fin 64) :
    View.ld x1 (Rect.unit (s := S6x64x64) ![0, 0, 0] S1x64x64.size inb_S6x64x64_S1x64x64_0_0_0) (ix3 (0 : Fin 1) j f) = x1 (ix3 (0 : Fin 6) j f) := by
  show x1 _ = x1 _
  congr 1; funext a; apply Fin.ext
  match a with
  | ⟨0, _⟩ => show 0 + 1 * 0 = 0; omega
  | ⟨1, _⟩ => show 0 + 1 * j.val = j.val; omega
  | ⟨2, _⟩ => show 0 + 1 * f.val = f.val; omega
theorem slabA1 (x0 : Vec Ideal S6x4000x64 .f32) (r : Fin 4000) (j : Fin 64) :
    View.ld x0 (Rect.unit (s := S6x4000x64) ![1, 0, 0] S1x4000x64.size inb_S6x4000x64_S1x4000x64_1_0_0) (ix3 (0 : Fin 1) r j) = x0 (ix3 (1 : Fin 6) r j) := by
  show x0 _ = x0 _
  congr 1; funext a; apply Fin.ext
  match a with
  | ⟨0, _⟩ => show 1 + 1 * 0 = 1; omega
  | ⟨1, _⟩ => show 0 + 1 * r.val = r.val; omega
  | ⟨2, _⟩ => show 0 + 1 * j.val = j.val; omega
theorem slabW1 (x1 : Vec Ideal S6x64x64 .f32) (j : Fin 64) (f : Fin 64) :
    View.ld x1 (Rect.unit (s := S6x64x64) ![1, 0, 0] S1x64x64.size inb_S6x64x64_S1x64x64_1_0_0) (ix3 (0 : Fin 1) j f) = x1 (ix3 (1 : Fin 6) j f) := by
  show x1 _ = x1 _
  congr 1; funext a; apply Fin.ext
  match a with
  | ⟨0, _⟩ => show 1 + 1 * 0 = 1; omega
  | ⟨1, _⟩ => show 0 + 1 * j.val = j.val; omega
  | ⟨2, _⟩ => show 0 + 1 * f.val = f.val; omega
theorem slabA2 (x0 : Vec Ideal S6x4000x64 .f32) (r : Fin 4000) (j : Fin 64) :
    View.ld x0 (Rect.unit (s := S6x4000x64) ![2, 0, 0] S1x4000x64.size inb_S6x4000x64_S1x4000x64_2_0_0) (ix3 (0 : Fin 1) r j) = x0 (ix3 (2 : Fin 6) r j) := by
  show x0 _ = x0 _
  congr 1; funext a; apply Fin.ext
  match a with
  | ⟨0, _⟩ => show 2 + 1 * 0 = 2; omega
  | ⟨1, _⟩ => show 0 + 1 * r.val = r.val; omega
  | ⟨2, _⟩ => show 0 + 1 * j.val = j.val; omega
theorem slabW2 (x1 : Vec Ideal S6x64x64 .f32) (j : Fin 64) (f : Fin 64) :
    View.ld x1 (Rect.unit (s := S6x64x64) ![2, 0, 0] S1x64x64.size inb_S6x64x64_S1x64x64_2_0_0) (ix3 (0 : Fin 1) j f) = x1 (ix3 (2 : Fin 6) j f) := by
  show x1 _ = x1 _
  congr 1; funext a; apply Fin.ext
  match a with
  | ⟨0, _⟩ => show 2 + 1 * 0 = 2; omega
  | ⟨1, _⟩ => show 0 + 1 * j.val = j.val; omega
  | ⟨2, _⟩ => show 0 + 1 * f.val = f.val; omega
theorem slabA3 (x0 : Vec Ideal S6x4000x64 .f32) (r : Fin 4000) (j : Fin 64) :
    View.ld x0 (Rect.unit (s := S6x4000x64) ![3, 0, 0] S1x4000x64.size inb_S6x4000x64_S1x4000x64_3_0_0) (ix3 (0 : Fin 1) r j) = x0 (ix3 (3 : Fin 6) r j) := by
  show x0 _ = x0 _
  congr 1; funext a; apply Fin.ext
  match a with
  | ⟨0, _⟩ => show 3 + 1 * 0 = 3; omega
  | ⟨1, _⟩ => show 0 + 1 * r.val = r.val; omega
  | ⟨2, _⟩ => show 0 + 1 * j.val = j.val; omega
theorem slabW3 (x1 : Vec Ideal S6x64x64 .f32) (j : Fin 64) (f : Fin 64) :
    View.ld x1 (Rect.unit (s := S6x64x64) ![3, 0, 0] S1x64x64.size inb_S6x64x64_S1x64x64_3_0_0) (ix3 (0 : Fin 1) j f) = x1 (ix3 (3 : Fin 6) j f) := by
  show x1 _ = x1 _
  congr 1; funext a; apply Fin.ext
  match a with
  | ⟨0, _⟩ => show 3 + 1 * 0 = 3; omega
  | ⟨1, _⟩ => show 0 + 1 * j.val = j.val; omega
  | ⟨2, _⟩ => show 0 + 1 * f.val = f.val; omega
theorem slabA4 (x0 : Vec Ideal S6x4000x64 .f32) (r : Fin 4000) (j : Fin 64) :
    View.ld x0 (Rect.unit (s := S6x4000x64) ![4, 0, 0] S1x4000x64.size inb_S6x4000x64_S1x4000x64_4_0_0) (ix3 (0 : Fin 1) r j) = x0 (ix3 (4 : Fin 6) r j) := by
  show x0 _ = x0 _
  congr 1; funext a; apply Fin.ext
  match a with
  | ⟨0, _⟩ => show 4 + 1 * 0 = 4; omega
  | ⟨1, _⟩ => show 0 + 1 * r.val = r.val; omega
  | ⟨2, _⟩ => show 0 + 1 * j.val = j.val; omega
theorem slabW4 (x1 : Vec Ideal S6x64x64 .f32) (j : Fin 64) (f : Fin 64) :
    View.ld x1 (Rect.unit (s := S6x64x64) ![4, 0, 0] S1x64x64.size inb_S6x64x64_S1x64x64_4_0_0) (ix3 (0 : Fin 1) j f) = x1 (ix3 (4 : Fin 6) j f) := by
  show x1 _ = x1 _
  congr 1; funext a; apply Fin.ext
  match a with
  | ⟨0, _⟩ => show 4 + 1 * 0 = 4; omega
  | ⟨1, _⟩ => show 0 + 1 * j.val = j.val; omega
  | ⟨2, _⟩ => show 0 + 1 * f.val = f.val; omega
theorem slabA5 (x0 : Vec Ideal S6x4000x64 .f32) (r : Fin 4000) (j : Fin 64) :
    View.ld x0 (Rect.unit (s := S6x4000x64) ![5, 0, 0] S1x4000x64.size inb_S6x4000x64_S1x4000x64_5_0_0) (ix3 (0 : Fin 1) r j) = x0 (ix3 (5 : Fin 6) r j) := by
  show x0 _ = x0 _
  congr 1; funext a; apply Fin.ext
  match a with
  | ⟨0, _⟩ => show 5 + 1 * 0 = 5; omega
  | ⟨1, _⟩ => show 0 + 1 * r.val = r.val; omega
  | ⟨2, _⟩ => show 0 + 1 * j.val = j.val; omega
theorem slabW5 (x1 : Vec Ideal S6x64x64 .f32) (j : Fin 64) (f : Fin 64) :
    View.ld x1 (Rect.unit (s := S6x64x64) ![5, 0, 0] S1x64x64.size inb_S6x64x64_S1x64x64_5_0_0) (ix3 (0 : Fin 1) j f) = x1 (ix3 (5 : Fin 6) j f) := by
  show x1 _ = x1 _
  congr 1; funext a; apply Fin.ext
  match a with
  | ⟨0, _⟩ => show 5 + 1 * 0 = 5; omega
  | ⟨1, _⟩ => show 0 + 1 * j.val = j.val; omega
  | ⟨2, _⟩ => show 0 + 1 * f.val = f.val; omega

/-- One hop's product on a block: row r of slab k of the features block against column f of slab k of the weights. -/
def blockHop (x0 : Vec Ideal S6x4000x64 .f32) (x1 : Vec Ideal S6x64x64 .f32) (k : Fin 6) (r : Fin 4000) (f : Fin 64) : EReal :=
  ∑ j : Fin 64, x0 (ix3 k r j) * x1 (ix3 k j f)

/-- Hop k on the loaded slabs, at row r and channel f: the accumulator there plus the block's k-th hop. -/
theorem hopAt0 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![0, 0, 0] S1x4000x64.size inb_S6x4000x64_S1x4000x64_0_0_0))
      (View.ld x1 (Rect.unit (s := S6x64x64) ![0, 0, 0] S1x64x64.size inb_S6x64x64_S1x64x64_0_0_0)) acc (ix2 r f)
      = acc (ix2 r f) + blockHop x0 x1 0 r f := by
  rw [hop_apply]
  congr 1
  exact Finset.sum_congr rfl fun j _ => by rw [slabA0, slabW0]
theorem hopAt1 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![1, 0, 0] S1x4000x64.size inb_S6x4000x64_S1x4000x64_1_0_0))
      (View.ld x1 (Rect.unit (s := S6x64x64) ![1, 0, 0] S1x64x64.size inb_S6x64x64_S1x64x64_1_0_0)) acc (ix2 r f)
      = acc (ix2 r f) + blockHop x0 x1 1 r f := by
  rw [hop_apply]
  congr 1
  exact Finset.sum_congr rfl fun j _ => by rw [slabA1, slabW1]
theorem hopAt2 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![2, 0, 0] S1x4000x64.size inb_S6x4000x64_S1x4000x64_2_0_0))
      (View.ld x1 (Rect.unit (s := S6x64x64) ![2, 0, 0] S1x64x64.size inb_S6x64x64_S1x64x64_2_0_0)) acc (ix2 r f)
      = acc (ix2 r f) + blockHop x0 x1 2 r f := by
  rw [hop_apply]
  congr 1
  exact Finset.sum_congr rfl fun j _ => by rw [slabA2, slabW2]
theorem hopAt3 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![3, 0, 0] S1x4000x64.size inb_S6x4000x64_S1x4000x64_3_0_0))
      (View.ld x1 (Rect.unit (s := S6x64x64) ![3, 0, 0] S1x64x64.size inb_S6x64x64_S1x64x64_3_0_0)) acc (ix2 r f)
      = acc (ix2 r f) + blockHop x0 x1 3 r f := by
  rw [hop_apply]
  congr 1
  exact Finset.sum_congr rfl fun j _ => by rw [slabA3, slabW3]
theorem hopAt4 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![4, 0, 0] S1x4000x64.size inb_S6x4000x64_S1x4000x64_4_0_0))
      (View.ld x1 (Rect.unit (s := S6x64x64) ![4, 0, 0] S1x64x64.size inb_S6x64x64_S1x64x64_4_0_0)) acc (ix2 r f)
      = acc (ix2 r f) + blockHop x0 x1 4 r f := by
  rw [hop_apply]
  congr 1
  exact Finset.sum_congr rfl fun j _ => by rw [slabA4, slabW4]
theorem hopAt5 (x0 : Vec Ideal S6x4000x64 .f32) (x1 : Vec Ideal S6x64x64 .f32) (acc : Vec Ideal S4000x64 .f32) (r : Fin 4000) (f : Fin 64) :
    k0_pay5 (F := Ideal) (View.ld x0 (Rect.unit (s := S6x4000x64) ![5, 0, 0] S1x4000x64.size inb_S6x4000x64_S1x4000x64_5_0_0))
      (View.ld x1 (Rect.unit (s := S6x64x64) ![5, 0, 0] S1x64x64.size inb_S6x64x64_S1x64x64_5_0_0)) acc (ix2 r f)
      = acc (ix2 r f) + blockHop x0 x1 5 r f := by
  rw [hop_apply]
  congr 1
  exact Finset.sum_congr rfl fun j _ => by rw [slabA5, slabW5]

/-- What the body stores at row r, channel f of the output block: zero plus the six hops in order, plus the bias, clamped. -/
theorem stored_apply (x0 : Vec Ideal S6x4000x64 .f32) (x1 : Vec Ideal S6x64x64 .f32) (x2 : Vec Ideal S64 .f32) (r : Fin 4000) (f : Fin 64) :
    stored (F := Ideal) x0 x1 x2 (ix2 r f)
      = max (((((((0 + blockHop x0 x1 0 r f) + blockHop x0 x1 1 r f) + blockHop x0 x1 2 r f) + blockHop x0 x1 3 r f)
          + blockHop x0 x1 4 r f) + blockHop x0 x1 5 r f) + x2 (ix1 f)) 0 := by
  rw [stored, acc6, acc5, acc4, acc3, acc2, acc1, clamp_apply, pay2_eq, hopAt5, pay1_eq, hopAt4, pay8_eq, hopAt3, pay7_eq, hopAt2,
    pay6_eq, hopAt1, hopAt0, clear_apply]

end AtIdeal

/-! ## From blocks to the result array -/

section Blocks

variable (m : (ℓ : Loc nD τ sig) → Buf (Elt Ideal) ℓ) (ρ : Dev nD → PrngReg)

/-- Slab `k` of a stacked 6 × nodes × channels array, as a nodes × channels array. -/
def slab (X : Vec Ideal S6x100000x64 .f32) (k : Fin 6) : Cert.Cheb.Feat := fun i => X (ix3 k (i 0) (i 1))

/-- The result array as a function of the stacked features, the weights and the bias: the dense stage of the six slabs. -/
def result (X : Vec Ideal S6x100000x64 .f32) (W : Vec Ideal S6x64x64 .f32) (b : Vec Ideal S64 .f32) : Cert.Cheb.Feat :=
  Cert.Cheb.combine (slab X 0) (slab X 1) (slab X 2) (slab X 3) (slab X 4) (slab X 5) W b

/-- The index maps, decided over the 25 grid points: the features window and the output window move along the node axis
    with the point; the weights and the bias stay at their one block. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

theorem row_lt (t : Fin cfg0.N) (r : Fin 4000) : 4000 * t.val + r.val < 100000 := by
  have hN : cfg0.N = 25 := N_0
  have := t.isLt; have := r.isLt; omega

/-- The features block at point `t`, at (k, r, j), is the stacked array at node `4000 t + r`. -/
theorem blockA_apply (c : Dev nD) (t : Fin cfg0.N) (k : Fin 6) (r : Fin 4000) (j : Fin 64) :
    (blockAt m c 0 t : Vec Ideal S6x4000x64 .f32) (ix3 k r j) = entry m c main_v113 (ix3 k ⟨4000 * t.val + r.val, row_lt t r⟩ j) := by
  obtain ⟨e0, e1, e2, -⟩ := idx_facts t
  unfold blockAt
  rw [View.read_apply]
  show entry m c main_v113 _ = entry m c main_v113 _
  congr 1; funext a; apply Fin.ext
  match a with
  | ⟨0, _⟩ => show win0_0.index t (0 : Fin 3) * 6 + 1 * k.val = k.val; rw [e0]; omega
  | ⟨1, _⟩ => show win0_0.index t (1 : Fin 3) * 4000 + 1 * r.val = 4000 * t.val + r.val; rw [e1]; omega
  | ⟨2, _⟩ => show win0_0.index t (2 : Fin 3) * 64 + 1 * j.val = j.val; rw [e2]; omega

/-- The weights block at any point is the weights. -/
theorem blockW_apply (c : Dev nD) (t : Fin cfg0.N) (k : Fin 6) (j : Fin 64) (f : Fin 64) :
    (blockAt m c 1 t : Vec Ideal S6x64x64 .f32) (ix3 k j f) = entry m c main_arg3 (ix3 k j f) := by
  obtain ⟨-, -, -, e0, e1, e2, -⟩ := idx_facts t
  unfold blockAt
  rw [View.read_apply]
  show entry m c main_arg3 _ = entry m c main_arg3 _
  congr 1; funext a; apply Fin.ext
  match a with
  | ⟨0, _⟩ => show win0_1.index t (0 : Fin 3) * 6 + 1 * k.val = k.val; rw [e0]; omega
  | ⟨1, _⟩ => show win0_1.index t (1 : Fin 3) * 64 + 1 * j.val = j.val; rw [e1]; omega
  | ⟨2, _⟩ => show win0_1.index t (2 : Fin 3) * 64 + 1 * f.val = f.val; rw [e2]; omega

/-- The bias block at any point is the bias. -/
theorem blockB_apply (c : Dev nD) (t : Fin cfg0.N) (f : Fin 64) :
    (blockAt m c 2 t : Vec Ideal S64 .f32) (ix1 f) = entry m c main_arg4 (ix1 f) := by
  obtain ⟨-, -, -, -, -, -, e0, -⟩ := idx_facts t
  unfold blockAt
  rw [View.read_apply]
  show entry m c main_arg4 _ = entry m c main_arg4 _
  congr 1; funext a; apply Fin.ext
  match a with
  | ⟨0, _⟩ => show win0_2.index t (0 : Fin 1) * 64 + 1 * f.val = f.val; rw [e0]; omega

/-- A hop's product on the blocks at point `t` is the hop of the whole arrays at node `4000 t + r`. -/
theorem blockHop_eq (c : Dev nD) (t : Fin cfg0.N) (k : Fin 6) (r : Fin 4000) (f : Fin 64) :
    blockHop (blockAt m c 0 t) (blockAt m c 1 t) k r f
      = Cert.Cheb.hop (slab (entry m c main_v113) k) (entry m c main_arg3) k ⟨4000 * t.val + r.val, row_lt t r⟩ f := by
  unfold blockHop Cert.Cheb.hop
  refine Finset.sum_congr rfl fun j _ => ?_
  rw [blockA_apply, blockW_apply]
  rfl

/-- What point `t` writes back is block `t` of the result. -/
theorem flushed_eq (c : Dev nD) (t : Fin cfg0.N) :
    (dats m 0 c).flushed 3 t
      = ((cfg0.win 3).blk t).view.read (Elt Ideal) (result (entry m c main_v113) (entry m c main_arg3) (entry m c main_arg4)) := by
  show (cfg0.win 3).cut (grid0.coords t) ((dats m 0 c).after 3 t) = _
  rw [after3]
  unfold outAt
  rw [outBlock_eq]
  funext y
  obtain ⟨r, f, rfl⟩ : ∃ (r : Fin 4000) (f : Fin 64), y = ix2 r f := ⟨y 0, y 1, eq_ix2 y⟩
  obtain ⟨-, -, -, -, -, -, -, e0, e1⟩ := idx_facts t
  have hemb : ((cfg0.win 3).blk t).view.emb (ix2 r f) = ix2 (⟨4000 * t.val + r.val, row_lt t r⟩ : Fin 100000) f := by
    funext a; apply Fin.ext
    match a with
    | ⟨0, _⟩ => show win0_3.index t (0 : Fin 2) * 4000 + 1 * r.val = 4000 * t.val + r.val; rw [e0]; omega
    | ⟨1, _⟩ => show win0_3.index t (1 : Fin 2) * 64 + 1 * f.val = f.val; rw [e1]; omega
  show stored (blockAt m c 0 t) (blockAt m c 1 t) (blockAt m c 2 t) (ix2 r f) = _
  rw [View.read_apply, hemb, stored_apply, blockHop_eq, blockHop_eq, blockHop_eq, blockHop_eq, blockHop_eq, blockHop_eq, blockB_apply]
  unfold result Cert.Cheb.combine
  rw [← Cert.Cheb.hops_from_zero]
  rfl

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v114).slice (win0_3.rect t)).set ↔ _
  rw [View.set_slice_whole, Rect.mem_set_unit]
  exact Iff.rfl

/-- Every index of the result array is in some point's block: node `n` is in block `n / 4000`. -/
theorem covered (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 25 := N_0
  have ht : (i 0).val / 4000 < cfg0.N := by rw [hN]; omega
  obtain ⟨-, -, -, -, -, -, -, e0, e1⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e0]; dsimp only; omega
  | ⟨1, _⟩ =>
    show win0_3.index ⟨(i 0).val / 4000, ht⟩ (1 : Fin 2) * 64 ≤ (i 1).val ∧ (i 1).val < win0_3.index ⟨(i 0).val / 4000, ht⟩ (1 : Fin 2) * 64 + 64
    rw [e1]; omega

/-- So the result array ends holding the dense stage of the stacked features, the weights and the bias. -/
theorem final (c : Dev nD) :
    (dats m 0 c).arrAt 3 cfg0.N = result (entry m c main_v113) (entry m c main_arg3) (entry m c main_arg4) :=
  (dats m 0 c).arrAt_eq_of_cover 3 (result (entry m c main_v113) (entry m c main_arg3) (entry m c main_arg4))
    (fun t _ => flushed_eq m c t) covered

/-- The run, read: the result array at the dense stage of what the launch found stacked, the weights and bias as
    given; the five argument arrays unchanged. -/
theorem run : θ_run defs (onTc (τ := τ) (main (F := Ideal))) ⟨m, fun _ => 0, ρ⟩ fun r => ∀ c : Dev nD,
      r.2.mem ((c.tc : Thread nD τ).loc main_v114)
        = result (entry m c main_v113) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 3).trans ((final m c).trans (by rw [entry_main_arg3, entry_main_arg4])),
     ((h c).2 main_arg0 (by decide)).trans (entry_main_arg0 m c),
     ((h c).2 main_arg1 (by decide)).trans (entry_main_arg1 m c),
     ((h c).2 main_arg2 (by decide)).trans (entry_main_arg2 m c),
     ((h c).1 1).trans (((dats m 0 c).arrAt_in 1 rfl _).trans ((A_eq m c 1).trans (entry_main_arg3 m c))),
     ((h c).1 2).trans (((dats m 0 c).arrAt_in 2 rfl _).trans ((A_eq m c 2).trans (entry_main_arg4 m c)))⟩)
    (run_main m ρ)

end Blocks
end Cert.KernelIdeal.Val
end
-- ==== Proof.KernelIdealStack.lean ====
/-
  The six Chebyshev feature arrays as the launch finds them.

  Before the launch the host computes, from the node features x, the edge list and the edge weights, the arrays
  T₀ = x, T₁ = L·x, T_k = 2·L·T_(k-1) - T_(k-2) (L the normalised adjacency applied as gather, scale, scatter-add), and
  stacks them into one 6 × nodes × channels array. Two facts are stated here.

  The stack at an index: entry (k, n, j) of the stacked array is entry (n, j) of T_k — the stacked array is the
  concatenation along a new leading axis of the six arrays, each given that axis with extent one, so block k of the
  concatenation is T_k and the leading coordinate k selects it.

  The match with the reference: each T_k the host computes before the launch is the same composition of the same pure
  operations of the same three arrays as the reference program's T_k, so the two are equal as functions of the
  arguments, for any float values.
-/
import proofs.«134106_j41644002902087_1_alg».proof.Proof.KernelIdealPrefix
import proofs.«134106_j41644002902087_1_alg».proof.Proof.Gen.ReferenceIdeal.Read
import proofs.«134106_j41644002902087_1_alg».proof.Proof.ChebCombine
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stack

open Cert.KernelIdeal Cert.KernelIdeal.Gen Cert.KernelIdeal.Frame
open Idealize.ShloMosaic Idealize.ShloMosaic.TcCoe Idealize.ShloMosaic.ValueIdx
open Idealize.SL Idealize.SL.RA Idealize.SL.BI
open scoped Idealize.SL.BI
open Idealize.SL.BI.BIBase Idealize.SL.Sem

variable {F : FTy → Type} [FloatOps F]
variable (m : (ℓ : Loc nD τ sig) → Buf (Elt F) ℓ)

/-! ## The match with the reference

Each is read off the host operations' fold at the array's own buffer: every operation's result at its buffer is its
function of its operands' contents, down to the three argument arrays, and the composed term is the reference's. -/

set_option maxHeartbeats 40000000 in
/-- T₁ = L·x: the first propagated feature array is the reference's. -/
theorem entry_main_v42 (c : Dev nD) :
    entry (F := F) m c main_v42
      = Cert.ReferenceIdeal.Read.val_main_v45 (F := F) (m ((c : Thread nD τ).loc main_arg0)) (m ((c : Thread nD τ).loc main_arg1)) (m ((c : Thread nD τ).loc main_arg2)) := by
  show StableHlo.after (stretches (F := F)).flatten (fun b => m (c, b)) (Proc.devRef .tc main_v42) = _
  simp only [stretches, hostOps0, hostOps0_1, hostOps0_2, List.flatten_cons, List.flatten_nil, List.append_nil, List.cons_append, List.nil_append]
  after_results_simp
  rfl

set_option maxHeartbeats 40000000 in
/-- T₂ = 2·L·T₁ - T₀ is the reference's. -/
theorem entry_main_v58 (c : Dev nD) :
    entry (F := F) m c main_v58
      = Cert.ReferenceIdeal.Read.val_main_v65 (F := F) (m ((c : Thread nD τ).loc main_arg0)) (m ((c : Thread nD τ).loc main_arg1)) (m ((c : Thread nD τ).loc main_arg2)) := by
  show StableHlo.after (stretches (F := F)).flatten (fun b => m (c, b)) (Proc.devRef .tc main_v58) = _
  simp only [stretches, hostOps0, hostOps0_1, hostOps0_2, List.flatten_cons, List.flatten_nil, List.append_nil, List.cons_append, List.nil_append]
  after_results_simp
  rfl

set_option maxHeartbeats 40000000 in
/-- T₃ = 2·L·T₂ - T₁ is the reference's. -/
theorem entry_main_v74 (c : Dev nD) :
    entry (F := F) m c main_v74
      = Cert.ReferenceIdeal.Read.val_main_v85 (F := F) (m ((c : Thread nD τ).loc main_arg0)) (m ((c : Thread nD τ).loc main_arg1)) (m ((c : Thread nD τ).loc main_arg2)) := by
  show StableHlo.after (stretches (F := F)).flatten (fun b => m (c, b)) (Proc.devRef .tc main_v74) = _
  simp only [stretches, hostOps0, hostOps0_1, hostOps0_2, List.flatten_cons, List.flatten_nil, List.append_nil, List.cons_append, List.nil_append]
  after_results_simp
  rfl

set_option maxHeartbeats 40000000 in
/-- T₄ = 2·L·T₃ - T₂ is the reference's. -/
theorem entry_main_v90 (c : Dev nD) :
    entry (F := F) m c main_v90
      = Cert.ReferenceIdeal.Read.val_main_v105 (F := F) (m ((c : Thread nD τ).loc main_arg0)) (m ((c : Thread nD τ).loc main_arg1)) (m ((c : Thread nD τ).loc main_arg2)) := by
  show StableHlo.after (stretches (F := F)).flatten (fun b => m (c, b)) (Proc.devRef .tc main_v90) = _
  simp only [stretches, hostOps0, hostOps0_1, hostOps0_2, List.flatten_cons, List.flatten_nil, List.append_nil, List.cons_append, List.nil_append]
  after_results_simp
  rfl

set_option maxHeartbeats 40000000 in
/-- T₅ = 2·L·T₄ - T₃ is the reference's. -/
theorem entry_main_v106 (c : Dev nD) :
    entry (F := F) m c main_v106
      = Cert.ReferenceIdeal.Read.val_main_v125 (F := F) (m ((c : Thread nD τ).loc main_arg0)) (m ((c : Thread nD τ).loc main_arg1)) (m ((c : Thread nD τ).loc main_arg2)) := by
  show StableHlo.after (stretches (F := F)).flatten (fun b => m (c, b)) (Proc.devRef .tc main_v106) = _
  simp only [stretches, hostOps0, hostOps0_1, hostOps0_2, List.flatten_cons, List.flatten_nil, List.append_nil, List.cons_append, List.nil_append]
  after_results_simp
  rfl

/-! ## The stack

The stacking is the last seven host operations: each of the six arrays given a new leading axis of extent one, and the
concatenation of the six along that axis. No operation among the seven writes one of the six arrays, so each is, when
the launch is reached, what it was before the stacking; the stacked array is the concatenation of those. -/

/-- The result of an operation over a literal family of six operands, each operand's contents at its own buffer. -/
theorem nary6_result {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (StableHlo.nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [StableHlo.nary_result]; congr 1; funext k; fin_cases k <;> rfl

/-- Six nodes × channels arrays stacked along a new leading axis. -/
def stack (y0 y1 y2 y3 y4 y5 : (⟨S100000x64, .f32⟩ : BufTy).Contents (Elt F)) : (⟨S6x100000x64, .f32⟩ : BufTy).Contents (Elt F) :=
  concatenate S6x100000x64 0
    [⟨S1x100000x64, broadcastInDim S1x100000x64 ![1, 2] bcast_S100000x64_S1x100000x64_1_2 y0⟩, ⟨S1x100000x64, broadcastInDim S1x100000x64 ![1, 2] bcast_S100000x64_S1x100000x64_1_2 y1⟩,
     ⟨S1x100000x64, broadcastInDim S1x100000x64 ![1, 2] bcast_S100000x64_S1x100000x64_1_2 y2⟩, ⟨S1x100000x64, broadcastInDim S1x100000x64 ![1, 2] bcast_S100000x64_S1x100000x64_1_2 y3⟩,
     ⟨S1x100000x64, broadcastInDim S1x100000x64 ![1, 2] bcast_S100000x64_S1x100000x64_1_2 y4⟩, ⟨S1x100000x64, broadcastInDim S1x100000x64 ![1, 2] bcast_S100000x64_S1x100000x64_1_2 y5⟩]
    concatenates_S1x100000x64_S1x100000x64_S1x100000x64_S1x100000x64_S1x100000x64_S1x100000x64_S6x100000x64_d0

/-- An array given a new leading axis of extent one, read at an index: the array at the other two coordinates. -/
theorem lift_apply (x : (⟨S100000x64, .f32⟩ : BufTy).Contents (Elt F)) (n : Fin 100000) (j : Fin 64) :
    broadcastInDim S1x100000x64 ![1, 2] bcast_S100000x64_S1x100000x64_1_2 x (ix3 0 n j) = x (ix2 n j) :=
  broadcastInDim_apply _ bcast_S100000x64_S1x100000x64_1_2 x (ix3 0 n j) (ix2 n j) (fun a => match a with
    | ⟨0, _⟩ => by show n.val = if (100000 : Nat) = 1 then 0 else n.val; rw [if_neg (by decide)]
    | ⟨1, _⟩ => by show j.val = if (64 : Nat) = 1 then 0 else j.val; rw [if_neg (by decide)])

/-- Block 0 of the stack is the first array. -/
theorem stack_apply_0 (y0 y1 y2 y3 y4 y5 : (⟨S100000x64, .f32⟩ : BufTy).Contents (Elt F)) (n : Fin 100000) (j : Fin 64) :
    stack y0 y1 y2 y3 y4 y5 (ix3 0 n j) = y0 (ix2 n j) := by
  unfold stack
  refine Eq.trans (concatenate_apply_piece (t := S6x100000x64) 0 _ _ (ix3 (0 : Fin 6) n j) 0 ?_ S1x100000x64
    (broadcastInDim S1x100000x64 ![1, 2] bcast_S100000x64_S1x100000x64_1_2 y0) ?_ rfl 0 ?_ (ix3 (0 : Fin 1) n j) ?_ ?_) (lift_apply y0 n j)
  · show (0 : Nat) < 6; decide
  · rfl
  · rfl
  · exact (fun b hb => match b, hb with
        | ⟨0, _⟩, hb => absurd rfl hb
        | ⟨1, _⟩, _ => rfl
        | ⟨2, _⟩, _ => rfl)
  · rfl

/-- Block 1 of the stack is the second array. -/
theorem stack_apply_1 (y0 y1 y2 y3 y4 y5 : (⟨S100000x64, .f32⟩ : BufTy).Contents (Elt F)) (n : Fin 100000) (j : Fin 64) :
    stack y0 y1 y2 y3 y4 y5 (ix3 1 n j) = y1 (ix2 n j) := by
  unfold stack
  refine Eq.trans (concatenate_apply_piece (t := S6x100000x64) 0 _ _ (ix3 (1 : Fin 6) n j) 1 ?_ S1x100000x64
    (broadcastInDim S1x100000x64 ![1, 2] bcast_S100000x64_S1x100000x64_1_2 y1) ?_ rfl 1 ?_ (ix3 (0 : Fin 1) n j) ?_ ?_) (lift_apply y1 n j)
  · show (1 : Nat) < 6; decide
  · rfl
  · rfl
  · exact (fun b hb => match b, hb with
        | ⟨0, _⟩, hb => absurd rfl hb
        | ⟨1, _⟩, _ => rfl
        | ⟨2, _⟩, _ => rfl)
  · rfl

/-- Block 2 of the stack is the third array. -/
theorem stack_apply_2 (y0 y1 y2 y3 y4 y5 : (⟨S100000x64, .f32⟩ : BufTy).Contents (Elt F)) (n : Fin 100000) (j : Fin 64) :
    stack y0 y1 y2 y3 y4 y5 (ix3 2 n j) = y2 (ix2 n j) := by
  unfold stack
  refine Eq.trans (concatenate_apply_piece (t := S6x100000x64) 0 _ _ (ix3 (2 : Fin 6) n j) 2 ?_ S1x100000x64
    (broadcastInDim S1x100000x64 ![1, 2] bcast_S100000x64_S1x100000x64_1_2 y2) ?_ rfl 2 ?_ (ix3 (0 : Fin 1) n j) ?_ ?_) (lift_apply y2 n j)
  · show (2 : Nat) < 6; decide
  · rfl
  · rfl
  · exact (fun b hb => match b, hb with
        | ⟨0, _⟩, hb => absurd rfl hb
        | ⟨1, _⟩, _ => rfl
        | ⟨2, _⟩, _ => rfl)
  · rfl

/-- Block 3 of the stack is the fourth array. -/
theorem stack_apply_3 (y0 y1 y2 y3 y4 y5 : (⟨S100000x64, .f32⟩ : BufTy).Contents (Elt F)) (n : Fin 100000) (j : Fin 64) :
    stack y0 y1 y2 y3 y4 y5 (ix3 3 n j) = y3 (ix2 n j) := by
  unfold stack
  refine Eq.trans (concatenate_apply_piece (t := S6x100000x64) 0 _ _ (ix3 (3 : Fin 6) n j) 3 ?_ S1x100000x64
    (broadcastInDim S1x100000x64 ![1, 2] bcast_S100000x64_S1x100000x64_1_2 y3) ?_ rfl 3 ?_ (ix3 (0 : Fin 1) n j) ?_ ?_) (lift_apply y3 n j)
  · show (3 : Nat) < 6; decide
  · rfl
  · rfl
  · exact (fun b hb => match b, hb with
        | ⟨0, _⟩, hb => absurd rfl hb
        | ⟨1, _⟩, _ => rfl
        | ⟨2, _⟩, _ => rfl)
  · rfl

/-- Block 4 of the stack is the fifth array. -/
theorem stack_apply_4 (y0 y1 y2 y3 y4 y5 : (⟨S100000x64, .f32⟩ : BufTy).Contents (Elt F)) (n : Fin 100000) (j : Fin 64) :
    stack y0 y1 y2 y3 y4 y5 (ix3 4 n j) = y4 (ix2 n j) := by
  unfold stack
  refine Eq.trans (concatenate_apply_piece (t := S6x100000x64) 0 _ _ (ix3 (4 : Fin 6) n j) 4 ?_ S1x100000x64
    (broadcastInDim S1x100000x64 ![1, 2] bcast_S100000x64_S1x100000x64_1_2 y4) ?_ rfl 4 ?_ (ix3 (0 : Fin 1) n j) ?_ ?_) (lift_apply y4 n j)
  · show (4 : Nat) < 6; decide
  · rfl
  · rfl
  · exact (fun b hb => match b, hb with
        | ⟨0, _⟩, hb => absurd rfl hb
        | ⟨1, _⟩, _ => rfl
        | ⟨2, _⟩, _ => rfl)
  · rfl

/-- Block 5 of the stack is the sixth array. -/
theorem stack_apply_5 (y0 y1 y2 y3 y4 y5 : (⟨S100000x64, .f32⟩ : BufTy).Contents (Elt F)) (n : Fin 100000) (j : Fin 64) :
    stack y0 y1 y2 y3 y4 y5 (ix3 5 n j) = y5 (ix2 n j) := by
  unfold stack
  refine Eq.trans (concatenate_apply_piece (t := S6x100000x64) 0 _ _ (ix3 (5 : Fin 6) n j) 5 ?_ S1x100000x64
    (broadcastInDim S1x100000x64 ![1, 2] bcast_S100000x64_S1x100000x64_1_2 y5) ?_ rfl 5 ?_ (ix3 (0 : Fin 1) n j) ?_ ?_) (lift_apply y5 n j)
  · show (5 : Nat) < 6; decide
  · rfl
  · rfl
  · exact (fun b hb => match b, hb with
        | ⟨0, _⟩, hb => absurd rfl hb
        | ⟨1, _⟩, _ => rfl
        | ⟨2, _⟩, _ => rfl)
  · rfl

/-- The last seven host operations: the six arrays each given the leading axis, and their concatenation. -/
abbrev stacking : List (HloOp τ sig (Elt F)) :=
  [
    StableHlo.unary main_arg0 main_v107 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v42 main_v108 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v58 main_v109 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v74 main_v110 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v90 main_v111 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v106 main_v112 (broadcastInDim S1x100000x64 ![1, 2] bcast_S100000x64_S1x100000x64_1_2 : (⟨S100000x64, .f32⟩ : BufTy).Contents (Elt F) → (⟨S1x100000x64, .f32⟩ : BufTy).Contents (Elt F)),
    StableHlo.nary ![main_v107, main_v108, main_v109, main_v110, main_v111, main_v112] main_v113 (fun u => concatenate S6x100000x64 0 [⟨S1x100000x64, u 0⟩, ⟨S1x100000x64, u 1⟩, ⟨S1x100000x64, u 2⟩, ⟨S1x100000x64, u 3⟩, ⟨S1x100000x64, u 4⟩, ⟨S1x100000x64, u 5⟩] concatenates_S1x100000x64_S1x100000x64_S1x100000x64_S1x100000x64_S1x100000x64_S1x100000x64_S6x100000x64_d0) ]

/-- The host operations before the stacking. -/
abbrev beforeStacking : List (HloOp τ sig (Elt F)) := hostOps0 ++ (hostOps0_1 ++ (hostOps0_2.take 117))

/-- The host operations are those before the stacking followed by the stacking. -/
theorem flatten_split : (stretches (F := F)).flatten = beforeStacking ++ stacking := by
  show hostOps0 ++ (hostOps0_1 ++ (hostOps0_2 ++ [])) = (hostOps0 ++ (hostOps0_1 ++ hostOps0_2.take 117)) ++ stacking
  rw [List.append_nil, List.append_assoc, List.append_assoc]
  exact congrArg (hostOps0 ++ ·) (congrArg (hostOps0_1 ++ ·) (List.take_append_drop 117 _).symm)

/-- What a buffer holds at the launch is the stacking's fold over what the buffers held before it. -/
theorem entry_eq (c : Dev nD) (b : Ref sig .tc) :
    entry (F := F) m c b = StableHlo.after stacking (StableHlo.after beforeStacking (fun b => m (c, b))) (Proc.devRef .tc b) := by
  show StableHlo.after (stretches (F := F)).flatten _ _ = _
  rw [flatten_split, StableHlo.after_append]

/-- The stacking writes none of the six arrays. -/
theorem stacking_keeps (V : Valuation τ sig (Elt F)) :
    StableHlo.after stacking V (Proc.devRef .tc main_arg0) = V (Proc.devRef .tc main_arg0)
    ∧ StableHlo.after stacking V (Proc.devRef .tc main_v42) = V (Proc.devRef .tc main_v42)
    ∧ StableHlo.after stacking V (Proc.devRef .tc main_v58) = V (Proc.devRef .tc main_v58)
    ∧ StableHlo.after stacking V (Proc.devRef .tc main_v74) = V (Proc.devRef .tc main_v74)
    ∧ StableHlo.after stacking V (Proc.devRef .tc main_v90) = V (Proc.devRef .tc main_v90)
    ∧ StableHlo.after stacking V (Proc.devRef .tc main_v106) = V (Proc.devRef .tc main_v106) := by
  refine ⟨?_, ?_, ?_, ?_, ?_, ?_⟩ <;> after_results

/-- The stacking leaves at the stacked array's buffer the stack of what the six arrays' buffers held. -/
theorem stacking_result (V : Valuation τ sig (Elt F)) :
    StableHlo.after stacking V (Proc.devRef .tc main_v113)
      = stack (V (Proc.devRef .tc main_arg0)) (V (Proc.devRef .tc main_v42)) (V (Proc.devRef .tc main_v58))
          (V (Proc.devRef .tc main_v74)) (V (Proc.devRef .tc main_v90)) (V (Proc.devRef .tc main_v106)) := by
  simp only [StableHlo.after_cons, StableHlo.after_nil]
  rw [nary6_result]
  repeat (first
    | rw [StableHlo.unary_result]
    | (rw [StableHlo.unary_result_ne]; rotate_left; decide))
  rfl

/-- The stacked array the launch finds is the stack of the six feature arrays the launch finds. -/
theorem entry_main_v113 (c : Dev nD) :
    entry (F := F) m c main_v113
      = stack (entry m c main_arg0) (entry m c main_v42) (entry m c main_v58) (entry m c main_v74) (entry m c main_v90)
          (entry m c main_v106) := by
  have hk := stacking_keeps (StableHlo.after beforeStacking (fun b => m (c, b)))
  rw [entry_eq m c main_v113, entry_eq m c main_arg0, entry_eq m c main_v42, entry_eq m c main_v58, entry_eq m c main_v74,
    entry_eq m c main_v90, entry_eq m c main_v106, stacking_result, hk.1, hk.2.1, hk.2.2.1, hk.2.2.2.1, hk.2.2.2.2.1,
    hk.2.2.2.2.2]

/-- Entry (0, n, j) of the stacked array the launch finds is entry (n, j) of T₀ as the launch finds it. -/
theorem entry_main_v113_apply_0 (c : Dev nD) (n : Fin 100000) (j : Fin 64) :
    (entry (F := F) m c main_v113 : (⟨S6x100000x64, .f32⟩ : BufTy).Contents (Elt F)) (ix3 0 n j)
      = (entry (F := F) m c main_arg0 : (⟨S100000x64, .f32⟩ : BufTy).Contents (Elt F)) (ix2 n j) := by
  rw [entry_main_v113]; exact stack_apply_0 _ _ _ _ _ _ n j

/-- Entry (1, n, j) of the stacked array the launch finds is entry (n, j) of T₁ as the launch finds it. -/
theorem entry_main_v113_apply_1 (c : Dev nD) (n : Fin 100000) (j : Fin 64) :
    (entry (F := F) m c main_v113 : (⟨S6x100000x64, .f32⟩ : BufTy).Contents (Elt F)) (ix3 1 n j)
      = (entry (F := F) m c main_v42 : (⟨S100000x64, .f32⟩ : BufTy).Contents (Elt F)) (ix2 n j) := by
  rw [entry_main_v113]; exact stack_apply_1 _ _ _ _ _ _ n j

/-- Entry (2, n, j) of the stacked array the launch finds is entry (n, j) of T₂ as the launch finds it. -/
theorem entry_main_v113_apply_2 (c : Dev nD) (n : Fin 100000) (j : Fin 64) :
    (entry (F := F) m c main_v113 : (⟨S6x100000x64, .f32⟩ : BufTy).Contents (Elt F)) (ix3 2 n j)
      = (entry (F := F) m c main_v58 : (⟨S100000x64, .f32⟩ : BufTy).Contents (Elt F)) (ix2 n j) := by
  rw [entry_main_v113]; exact stack_apply_2 _ _ _ _ _ _ n j

/-- Entry (3, n, j) of the stacked array the launch finds is entry (n, j) of T₃ as the launch finds it. -/
theorem entry_main_v113_apply_3 (c : Dev nD) (n : Fin 100000) (j : Fin 64) :
    (entry (F := F) m c main_v113 : (⟨S6x100000x64, .f32⟩ : BufTy).Contents (Elt F)) (ix3 3 n j)
      = (entry (F := F) m c main_v74 : (⟨S100000x64, .f32⟩ : BufTy).Contents (Elt F)) (ix2 n j) := by
  rw [entry_main_v113]; exact stack_apply_3 _ _ _ _ _ _ n j

/-- Entry (4, n, j) of the stacked array the launch finds is entry (n, j) of T₄ as the launch finds it. -/
theorem entry_main_v113_apply_4 (c : Dev nD) (n : Fin 100000) (j : Fin 64) :
    (entry (F := F) m c main_v113 : (⟨S6x100000x64, .f32⟩ : BufTy).Contents (Elt F)) (ix3 4 n j)
      = (entry (F := F) m c main_v90 : (⟨S100000x64, .f32⟩ : BufTy).Contents (Elt F)) (ix2 n j) := by
  rw [entry_main_v113]; exact stack_apply_4 _ _ _ _ _ _ n j

/-- Entry (5, n, j) of the stacked array the launch finds is entry (n, j) of T₅ as the launch finds it. -/
theorem entry_main_v113_apply_5 (c : Dev nD) (n : Fin 100000) (j : Fin 64) :
    (entry (F := F) m c main_v113 : (⟨S6x100000x64, .f32⟩ : BufTy).Contents (Elt F)) (ix3 5 n j)
      = (entry (F := F) m c main_v106 : (⟨S100000x64, .f32⟩ : BufTy).Contents (Elt F)) (ix2 n j) := by
  rw [entry_main_v113]; exact stack_apply_5 _ _ _ _ _ _ n j

end Cert.KernelIdeal.Stack

end
-- ==== Proof.RefCombine.lean ====
/-
  The reference program's last stage, read as the dense stage of the Chebyshev graph convolution.

  The reference multiplies each of its six propagated feature arrays T₀ … T₅ by one 64 × 64 slice of the weights,
  adds the six products left to right from the first, adds the bias along the channel axis and clamps below at zero.
  Here that is read off one operation at a time at an index (n, f): each product is the sum over the input channel j of
  Tₖ(n, j) · W(k, j, f) — the slice of W at hop k followed by the reshape that drops the unit axis reads W at (k, j, f),
  since (j · 64 + f) / 64 % 64 = j and (j · 64 + f) % 64 = f for j, f < 64 — and the rest is the elementwise sum, the bias
  read at the channel, and the maximum with the constant zero. The feature arrays stay opaque: nothing about how they
  are computed is used.
-/
import proofs.«134106_j41644002902087_1_alg».proof.Proof.Gen.ReferenceIdeal.Read
import proofs.«134106_j41644002902087_1_alg».proof.Proof.ChebCombine
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- A nodes × channels array at the ideal instance. -/
abbrev FeatBuf : Type := (⟨S100000x64, .f32⟩ : BufTy).Contents (Elt Ideal)
/-- The weights at the ideal instance. -/
abbrev WBuf : Type := (⟨S6x64x64, .f32⟩ : BufTy).Contents (Elt Ideal)
/-- The bias at the ideal instance. -/
abbrev BBuf : Type := (⟨S64, .f32⟩ : BufTy).Contents (Elt Ideal)

/-- Hop 0's weight matrix: the slice of W at hop 0, reshaped to 64 × 64, read at (j, f) is W(0, j, f). -/
theorem w0_apply (x3 : WBuf) (j f : Fin 64) :
    val_main_v31 (F := Ideal) x3 (ix2 j f) = x3 (ix3 (0 : Fin 6) j f) := by
  rw [val_main_v31_apply, val_main_v30_apply]
  congr 1
  funext a
  have hj : j.val < 64 := j.isLt
  have hf : f.val < 64 := f.isLt
  match a with
  | ⟨0, _⟩ => exact Fin.ext (by show 0 = 0; rfl)
  | ⟨1, _⟩ => exact Fin.ext (by show (j.val * 64 + f.val) / 64 % 64 = j.val; omega)
  | ⟨2, _⟩ => exact Fin.ext (by show (j.val * 64 + f.val) % 64 = f.val; omega)

/-- Hop 1's weight matrix: the slice of W at hop 1, reshaped to 64 × 64, read at (j, f) is W(1, j, f). -/
theorem w1_apply (x3 : WBuf) (j f : Fin 64) :
    val_main_v47 (F := Ideal) x3 (ix2 j f) = x3 (ix3 (1 : Fin 6) j f) := by
  rw [val_main_v47_apply, val_main_v46_apply]
  congr 1
  funext a
  have hj : j.val < 64 := j.isLt
  have hf : f.val < 64 := f.isLt
  match a with
  | ⟨0, _⟩ => exact Fin.ext (by show 1 + 0 = 1; rfl)
  | ⟨1, _⟩ => exact Fin.ext (by show (j.val * 64 + f.val) / 64 % 64 = j.val; omega)
  | ⟨2, _⟩ => exact Fin.ext (by show (j.val * 64 + f.val) % 64 = f.val; omega)

/-- Hop 2's weight matrix: the slice of W at hop 2, reshaped to 64 × 64, read at (j, f) is W(2, j, f). -/
theorem w2_apply (x3 : WBuf) (j f : Fin 64) :
    val_main_v67 (F := Ideal) x3 (ix2 j f) = x3 (ix3 (2 : Fin 6) j f) := by
  rw [val_main_v67_apply, val_main_v66_apply]
  congr 1
  funext a
  have hj : j.val < 64 := j.isLt
  have hf : f.val < 64 := f.isLt
  match a with
  | ⟨0, _⟩ => exact Fin.ext (by show 2 + 0 = 2; rfl)
  | ⟨1, _⟩ => exact Fin.ext (by show (j.val * 64 + f.val) / 64 % 64 = j.val; omega)
  | ⟨2, _⟩ => exact Fin.ext (by show (j.val * 64 + f.val) % 64 = f.val; omega)

/-- Hop 3's weight matrix: the slice of W at hop 3, reshaped to 64 × 64, read at (j, f) is W(3, j, f). -/
theorem w3_apply (x3 : WBuf) (j f : Fin 64) :
    val_main_v87 (F := Ideal) x3 (ix2 j f) = x3 (ix3 (3 : Fin 6) j f) := by
  rw [val_main_v87_apply, val_main_v86_apply]
  congr 1
  funext a
  have hj : j.val < 64 := j.isLt
  have hf : f.val < 64 := f.isLt
  match a with
  | ⟨0, _⟩ => exact Fin.ext (by show 3 + 0 = 3; rfl)
  | ⟨1, _⟩ => exact Fin.ext (by show (j.val * 64 + f.val) / 64 % 64 = j.val; omega)
  | ⟨2, _⟩ => exact Fin.ext (by show (j.val * 64 + f.val) % 64 = f.val; omega)

/-- Hop 4's weight matrix: the slice of W at hop 4, reshaped to 64 × 64, read at (j, f) is W(4, j, f). -/
theorem w4_apply (x3 : WBuf) (j f : Fin 64) :
    val_main_v107 (F := Ideal) x3 (ix2 j f) = x3 (ix3 (4 : Fin 6) j f) := by
  rw [val_main_v107_apply, val_main_v106_apply]
  congr 1
  funext a
  have hj : j.val < 64 := j.isLt
  have hf : f.val < 64 := f.isLt
  match a with
  | ⟨0, _⟩ => exact Fin.ext (by show 4 + 0 = 4; rfl)
  | ⟨1, _⟩ => exact Fin.ext (by show (j.val * 64 + f.val) / 64 % 64 = j.val; omega)
  | ⟨2, _⟩ => exact Fin.ext (by show (j.val * 64 + f.val) % 64 = f.val; omega)

/-- Hop 5's weight matrix: the slice of W at hop 5, reshaped to 64 × 64, read at (j, f) is W(5, j, f). -/
theorem w5_apply (x3 : WBuf) (j f : Fin 64) :
    val_main_v127 (F := Ideal) x3 (ix2 j f) = x3 (ix3 (5 : Fin 6) j f) := by
  rw [val_main_v127_apply, val_main_v126_apply]
  congr 1
  funext a
  have hj : j.val < 64 := j.isLt
  have hf : f.val < 64 := f.isLt
  match a with
  | ⟨0, _⟩ => exact Fin.ext (by show 5 + 0 = 5; rfl)
  | ⟨1, _⟩ => exact Fin.ext (by show (j.val * 64 + f.val) / 64 % 64 = j.val; omega)
  | ⟨2, _⟩ => exact Fin.ext (by show (j.val * 64 + f.val) % 64 = f.val; omega)

/-- The first product at (n, f): row n of the layer's input against column f of hop 0's weight matrix. -/
theorem dot0_apply (x0 : FeatBuf) (x3 : WBuf) (n : Fin 100000) (f : Fin 64) :
    val_main_v32 (F := Ideal) x0 x3 (ix2 n f) = Cert.Cheb.hop x0 x3 0 n f := by
  rw [val_main_v32_apply]
  unfold Cert.Cheb.hop
  refine Finset.sum_congr rfl fun j _ => ?_
  have hl : lidx_main_v32 (ix2 n f) j = ix2 n j :=
    funext fun a => by match a with | ⟨0, _⟩ => rfl | ⟨1, _⟩ => rfl
  have hr : ridx_main_v32 (ix2 n f) j = ix2 j f :=
    funext fun a => by match a with | ⟨0, _⟩ => rfl | ⟨1, _⟩ => rfl
  rw [hl, hr, w0_apply]

/-- Product 1 at (n, f): row n of the hop's feature array against column f of hop 1's weight matrix. -/
theorem dot1_apply (x0 : FeatBuf) (x1 : (⟨S2x1600000, .i32⟩ : BufTy).Contents (Elt Ideal)) (x2 : (⟨S1600000, .f32⟩ : BufTy).Contents (Elt Ideal)) (x3 : WBuf) (n : Fin 100000) (f : Fin 64) :
    val_main_v48 (F := Ideal) x0 x1 x2 x3 (ix2 n f)
      = Cert.Cheb.hop (val_main_v45 (F := Ideal) x0 x1 x2) x3 1 n f := by
  rw [val_main_v48_apply]
  unfold Cert.Cheb.hop
  refine Finset.sum_congr rfl fun j _ => ?_
  have hl : lidx_main_v48 (ix2 n f) j = ix2 n j :=
    funext fun a => by match a with | ⟨0, _⟩ => rfl | ⟨1, _⟩ => rfl
  have hr : ridx_main_v48 (ix2 n f) j = ix2 j f :=
    funext fun a => by match a with | ⟨0, _⟩ => rfl | ⟨1, _⟩ => rfl
  rw [hl, hr, w1_apply]

/-- Product 2 at (n, f): row n of the hop's feature array against column f of hop 2's weight matrix. -/
theorem dot2_apply (x0 : FeatBuf) (x1 : (⟨S2x1600000, .i32⟩ : BufTy).Contents (Elt Ideal)) (x2 : (⟨S1600000, .f32⟩ : BufTy).Contents (Elt Ideal)) (x3 : WBuf) (n : Fin 100000) (f : Fin 64) :
    val_main_v68 (F := Ideal) x0 x1 x2 x3 (ix2 n f)
      = Cert.Cheb.hop (val_main_v65 (F := Ideal) x0 x1 x2) x3 2 n f := by
  rw [val_main_v68_apply]
  unfold Cert.Cheb.hop
  refine Finset.sum_congr rfl fun j _ => ?_
  have hl : lidx_main_v68 (ix2 n f) j = ix2 n j :=
    funext fun a => by match a with | ⟨0, _⟩ => rfl | ⟨1, _⟩ => rfl
  have hr : ridx_main_v68 (ix2 n f) j = ix2 j f :=
    funext fun a => by match a with | ⟨0, _⟩ => rfl | ⟨1, _⟩ => rfl
  rw [hl, hr, w2_apply]

/-- Product 3 at (n, f): row n of the hop's feature array against column f of hop 3's weight matrix. -/
theorem dot3_apply (x0 : FeatBuf) (x1 : (⟨S2x1600000, .i32⟩ : BufTy).Contents (Elt Ideal)) (x2 : (⟨S1600000, .f32⟩ : BufTy).Contents (Elt Ideal)) (x3 : WBuf) (n : Fin 100000) (f : Fin 64) :
    val_main_v88 (F := Ideal) x0 x1 x2 x3 (ix2 n f)
      = Cert.Cheb.hop (val_main_v85 (F := Ideal) x0 x1 x2) x3 3 n f := by
  rw [val_main_v88_apply]
  unfold Cert.Cheb.hop
  refine Finset.sum_congr rfl fun j _ => ?_
  have hl : lidx_main_v88 (ix2 n f) j = ix2 n j :=
    funext fun a => by match a with | ⟨0, _⟩ => rfl | ⟨1, _⟩ => rfl
  have hr : ridx_main_v88 (ix2 n f) j = ix2 j f :=
    funext fun a => by match a with | ⟨0, _⟩ => rfl | ⟨1, _⟩ => rfl
  rw [hl, hr, w3_apply]

/-- Product 4 at (n, f): row n of the hop's feature array against column f of hop 4's weight matrix. -/
theorem dot4_apply (x0 : FeatBuf) (x1 : (⟨S2x1600000, .i32⟩ : BufTy).Contents (Elt Ideal)) (x2 : (⟨S1600000, .f32⟩ : BufTy).Contents (Elt Ideal)) (x3 : WBuf) (n : Fin 100000) (f : Fin 64) :
    val_main_v108 (F := Ideal) x0 x1 x2 x3 (ix2 n f)
      = Cert.Cheb.hop (val_main_v105 (F := Ideal) x0 x1 x2) x3 4 n f := by
  rw [val_main_v108_apply]
  unfold Cert.Cheb.hop
  refine Finset.sum_congr rfl fun j _ => ?_
  have hl : lidx_main_v108 (ix2 n f) j = ix2 n j :=
    funext fun a => by match a with | ⟨0, _⟩ => rfl | ⟨1, _⟩ => rfl
  have hr : ridx_main_v108 (ix2 n f) j = ix2 j f :=
    funext fun a => by match a with | ⟨0, _⟩ => rfl | ⟨1, _⟩ => rfl
  rw [hl, hr, w4_apply]

/-- Product 5 at (n, f): row n of the hop's feature array against column f of hop 5's weight matrix. -/
theorem dot5_apply (x0 : FeatBuf) (x1 : (⟨S2x1600000, .i32⟩ : BufTy).Contents (Elt Ideal)) (x2 : (⟨S1600000, .f32⟩ : BufTy).Contents (Elt Ideal)) (x3 : WBuf) (n : Fin 100000) (f : Fin 64) :
    val_main_v128 (F := Ideal) x0 x1 x2 x3 (ix2 n f)
      = Cert.Cheb.hop (val_main_v125 (F := Ideal) x0 x1 x2) x3 5 n f := by
  rw [val_main_v128_apply]
  unfold Cert.Cheb.hop
  refine Finset.sum_congr rfl fun j _ => ?_
  have hl : lidx_main_v128 (ix2 n f) j = ix2 n j :=
    funext fun a => by match a with | ⟨0, _⟩ => rfl | ⟨1, _⟩ => rfl
  have hr : ridx_main_v128 (ix2 n f) j = ix2 j f :=
    funext fun a => by match a with | ⟨0, _⟩ => rfl | ⟨1, _⟩ => rfl
  rw [hl, hr, w5_apply]

/-- The bias broadcast along the nodes, read at (n, f), is the bias at channel f. -/
theorem bias_apply (x4 : BBuf) (n : Fin 100000) (f : Fin 64) :
    val_main_v131 (F := Ideal) x4 (ix2 n f) = x4 (ix1 f) := by
  rw [val_main_v131_apply, val_main_v130_apply]
  congr 1
  funext a
  match a with
  | ⟨0, _⟩ => rfl

/-- The clamp's constant, broadcast to every index, is zero. -/
theorem zero_apply (i : S100000x64.Idx) : val_main_call1_v0 (F := Ideal) i = 0 := by
  rw [val_main_call1_v0_apply, val_main_call1_cst_apply, Ideal.ofBits_def, Ideal.ofBits_zero_f32]

/-- The reference's result is the dense stage applied to the layer's input, the five propagated feature arrays, the
    weights and the bias. -/
theorem ref_eq_combine (x0 : (⟨S100000x64, .f32⟩ : BufTy).Contents (Elt Ideal))
    (x1 : (⟨S2x1600000, .i32⟩ : BufTy).Contents (Elt Ideal)) (x2 : (⟨S1600000, .f32⟩ : BufTy).Contents (Elt Ideal))
    (x3 : (⟨S6x64x64, .f32⟩ : BufTy).Contents (Elt Ideal)) (x4 : (⟨S64, .f32⟩ : BufTy).Contents (Elt Ideal)) :
    val_main_v133 (F := Ideal) x0 x1 x2 x3 x4
      = Cert.Cheb.combine x0
          (val_main_v45 (F := Ideal) x0 x1 x2)
          (val_main_v65 (F := Ideal) x0 x1 x2)
          (val_main_v85 (F := Ideal) x0 x1 x2)
          (val_main_v105 (F := Ideal) x0 x1 x2)
          (val_main_v125 (F := Ideal) x0 x1 x2)
          x3 x4 := by
  funext i
  obtain ⟨n, f, rfl⟩ : ∃ (n : Fin 100000) (f : Fin 64), i = ix2 n f := ⟨i 0, i 1, eq_ix2 i⟩
  rw [val_main_v133_apply, zero_apply, val_main_v132_apply, bias_apply, val_main_v129_apply, val_main_v109_apply,
    val_main_v89_apply, val_main_v69_apply, val_main_v49_apply, dot0_apply, dot1_apply, dot2_apply, dot3_apply,
    dot4_apply, dot5_apply]
  simp only [Ideal.maximumf_def, Ideal.addf_def]
  rfl

end Cert.ReferenceIdeal.RefValue

end
-- ==== Proof.lean ====
/-
  A Chebyshev graph convolution of order six with a ReLU, computed two ways, and the claim that the two agree.

  Both programs build the same six feature arrays from the same source — T₀ = x, T₁ = L x, T_k = 2 L T_(k-1) - T_(k-2),
  with L the degree-normalised adjacency applied as gather, scale, scatter-add over the edge list — and both then form
  relu(∑ₖ Tₖ Wₖ + b). They differ only in the last stage: one program multiplies and adds on the host, hop after hop,
  starting from the first product; the other stacks the six arrays and hands them, 4000 nodes at a time, to a kernel that
  clears an accumulator, adds the six products into it in the same order, adds the bias and clamps.

  The five claims:
    • the word-level kernel program and its reading over the extended reals each run to the end without a fault and leave
      their five argument arrays as given (the launch theorem over the body's run at a symbolic grid point; the 143 host
      operations before the launch write only their own result buffers);
    • the reference program does the same (its run read back as one pure term of its arguments);
    • reading the kernel over the extended reals rewrote no operation, so that claim is vacuous;
    • over the extended reals both results are the same function of the arguments: the kernel's result array is the dense
      stage `Cert.Cheb.combine` of the six slabs of the stacked array, the weights and the bias; each slab is the matching
      feature array of the reference, because the two programs compose the same pure operations of the same three arrays;
      and the reference's last stage read at an index is `Cert.Cheb.combine` of its six feature arrays. The only algebra that
      separates the two arrangements is `0 + a = a`; nothing about the inputs being finite is used.
-/
import proofs.«134106_j41644002902087_1_alg».proof.Defs
import proofs.«134106_j41644002902087_1_alg».proof.Proof.Gen.Pre_finite_inputs
import proofs.«134106_j41644002902087_1_alg».proof.Proof.KernelFrame
import proofs.«134106_j41644002902087_1_alg».proof.Proof.KernelIdealValue
import proofs.«134106_j41644002902087_1_alg».proof.Proof.KernelIdealStack
import proofs.«134106_j41644002902087_1_alg».proof.Proof.RefCombine
import Idealize.ShloMosaic.Adequacy
import Idealize.ShloMosaic.Init

noncomputable section

namespace Cert.Proof

open Idealize.ShloMosaic Idealize.ShloMosaic.TcCoe Idealize.ShloMosaic.ValueIdx Idealize.SL.Sem

/-! ## The stacked array, slab by slab -/

/-- Slab 0 of the stacked array is the layer's input. -/
theorem slab0_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 0 = (m ((c.tc : Thread Cert.KernelIdeal.nD Cert.KernelIdeal.τ).loc Cert.KernelIdeal.main_arg0)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (0 : Fin 6) n j) = _
  rw [Cert.KernelIdeal.Stack.entry_main_v113_apply_0, Cert.KernelIdeal.Frame.entry_main_arg0]

/-- Slab 1 of the stacked array is the reference's feature array T1. -/
theorem slab1_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 1 = Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (1 : Fin 6) n j) = _
  rw [Cert.KernelIdeal.Stack.entry_main_v113_apply_1, Cert.KernelIdeal.Stack.entry_main_v42]

/-- Slab 2 of the stacked array is the reference's feature array T2. -/
theorem slab2_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 2 = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (2 : Fin 6) n j) = _
  rw [Cert.KernelIdeal.Stack.entry_main_v113_apply_2, Cert.KernelIdeal.Stack.entry_main_v58]

/-- Slab 3 of the stacked array is the reference's feature array T3. -/
theorem slab3_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 3 = Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (3 : Fin 6) n j) = _
  rw [Cert.KernelIdeal.Stack.entry_main_v113_apply_3, Cert.KernelIdeal.Stack.entry_main_v74]

/-- Slab 4 of the stacked array is the reference's feature array T4. -/
theorem slab4_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 4 = Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (4 : Fin 6) n j) = _
  rw [Cert.KernelIdeal.Stack.entry_main_v113_apply_4, Cert.KernelIdeal.Stack.entry_main_v90]

/-- Slab 5 of the stacked array is the reference's feature array T5. -/
theorem slab5_eq (m : (ℓ : Loc Cert.KernelIdeal.nD Cert.KernelIdeal.τ Cert.KernelIdeal.sig) → Buf (Elt Ideal) ℓ) (c : Dev Cert.KernelIdeal.nD) :
    Cert.KernelIdeal.Val.slab (Cert.KernelIdeal.Frame.entry m c Cert.KernelIdeal.main_v113) 5 = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  show Cert.KernelIdeal.Frame.entry m c Cert.KernelIdeal.main_v113 (ix3 (5 : Fin 6) n j) = _
  rw [Cert.KernelIdeal.Stack.entry_main_v113_apply_5, Cert.KernelIdeal.Stack.entry_main_v106]

/-! ## The claims -/

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the dense stage of the six slabs of what the launch found
    stacked, and the reference's at the dense stage of its six feature arrays, of arguments that agree: the same function. -/
theorem algebraic : Cert.algebraic_KernelIdeal_ReferenceIdeal := by
  intro m ρ m' ρ' _ hagree
  refine ⟨fun c => Cert.KernelIdeal.Val.result (Cert.KernelIdeal.Frame.entry m c Cert.KernelIdeal.main_v113) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq, Cert.ReferenceIdeal.RefValue.ref_eq_combine,
    (hagree c).1, (hagree c).2.1, (hagree c).2.2.1, (hagree c).2.2.2.1, (hagree c).2.2.2.2]
  beta_reduce
  unfold Cert.KernelIdeal.Val.result
  rw [slab0_eq, slab1_eq, slab2_eq, slab3_eq, slab4_eq, slab5_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
